-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S16x256 .f32) (main_arg2 : FVec F S16 .f32) (main_arg3 : FVec F S256x16 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x64x64x256 : Shape := ⟨4, ![32, 64, 64, 256]⟩
abbrev S32x4096x256 : Shape := ⟨3, ![32, 4096, 256]⟩
abbrev S2x4096x256 : Shape := ⟨3, ![2, 4096, 256]⟩
abbrev S2x256 : Shape := ⟨2, ![2, 256]⟩
abbrev S2x16 : Shape := ⟨2, ![2, 16]⟩
abbrev S1x16 : Shape := ⟨2, ![1, 16]⟩
abbrev S1x256 : Shape := ⟨2, ![1, 256]⟩
abbrev S2x1x256 : Shape := ⟨3, ![2, 1, 256]⟩

abbrev nBuf : Space → Nat
  | .hbm => 10
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S32x64x64x256, .f32⟩
  | .hbm, ⟨6, _⟩ => ⟨S32x4096x256, .f32⟩
  | .hbm, ⟨7, _⟩ => ⟨S32x4096x256, .f32⟩
  | .hbm, ⟨8, _⟩ => ⟨S32x64x64x256, .f32⟩
  | .hbm, ⟨9, _⟩ => ⟨S32x256x64x64, .f32⟩
  | .local _ .vmem, ⟨0, _⟩ => ⟨S2x4096x256, .f32⟩
  | .local _ .vmem, ⟨1, _⟩ => ⟨S2x4096x256, .f32⟩
  | .local _ .vmem, ⟨2, _⟩ => ⟨S16x256, .f32⟩
  | .local _ .vmem, ⟨3, _⟩ => ⟨S16, .f32⟩
  | .local _ .vmem, ⟨4, _⟩ => ⟨S256x16, .f32⟩
  | .local _ .vmem, ⟨5, _⟩ => ⟨S256, .f32⟩
  | .local _ .vmem, ⟨6, _⟩ => ⟨S2x4096x256, .f32⟩
  | .local _ .vmem, ⟨7, _⟩ => ⟨S2x4096x256, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x256x64x64_S32x64x64x256_0_2_3_1 : S32x256x64x64.Transposes [0, 2, 3, 1] S32x64x64x256
  shapeCasts_S32x64x64x256_S32x4096x256 : S32x64x64x256.ShapeCasts S32x4096x256
  inb_S2x4096x256_S2x4096x256_0_0_0 : ∀ a, (![0, 0, 0] : Fin 3 → Nat) a + S2x4096x256.size a ≤ S2x4096x256.size a
  h_S2x4096x256 : 0 < S2x4096x256.numel
  shapeCasts_S2x4096x256_S2x4096x256 : S2x4096x256.ShapeCasts S2x4096x256
  reduces_S2x4096x256_S2x256 : S2x4096x256.Reduces [1] S2x256
  inb_S16x256_S16x256_0_0 : ∀ a, (![0, 0] : Fin 2 → Nat) a + S16x256.size a ≤ S16x256.size a
  h_S16x256 : 0 < S16x256.numel
  inb_S16_S16_0 : ∀ a, (![0] : Fin 1 → Nat) a + S16.size a ≤ S16.size a
  h_S16 : 0 < S16.numel
  shapeCasts_S16_S1x16 : S16.ShapeCasts S1x16
  broadcasts_S1x16_S2x16 : S1x16.Broadcasts S2x16
  inb_S256x16_S256x16_0_0 : ∀ a, (![0, 0] : Fin 2 → Nat) a + S256x16.size a ≤ S256x16.size a
  h_S256x16 : 0 < S256x16.numel
  inb_S256_S256_0 : ∀ a, (![0] : Fin 1 → Nat) a + S256.size a ≤ S256.size a
  h_S256 : 0 < S256.numel
  shapeCasts_S256_S1x256 : S256.ShapeCasts S1x256
  broadcasts_S1x256_S2x256 : S1x256.Broadcasts S2x256
  shapeCasts_S2x256_S2x1x256 : S2x256.ShapeCasts S2x1x256
  broadcasts_S2x1x256_S2x4096x256 : S2x1x256.Broadcasts S2x4096x256
  shapeCasts_S32x4096x256_S32x64x64x256 : S32x4096x256.ShapeCasts S32x64x64x256
  transposes_S32x64x64x256_S32x256x64x64_0_3_1_2 : S32x64x64x256.Transposes [0, 3, 1, 2] S32x256x64x64
  dot_S2x256_S16x256_S2x16_1_1_0_0_n_n_wf : DotDims.WF S2x256 S16x256 S2x16 [1] [1] [0] [0] [] []
  dot_S2x16_S256x16_S2x256_1_1_0_0_n_n_wf : DotDims.WF S2x16 S256x16 S2x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S32x4096x256.size a
  hwx0_0 : ∀ i : grid0.Coords, EltTy.bits .f32 = 32 ∨ (Rect.block (s := S32x4096x256) S2x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4096x256.size a ≤ S32x4096x256.size a
  hwx0_5 : ∀ i : grid0.Coords, EltTy.bits .f32 = 32 ∨ (Rect.block (s := S32x4096x256) S2x4096x256.size (cc0_transform_5 i) (hinb0_5 i)).WholeWords (EltTy.packing .f32)

variable [Facts₀]

def dot_S2x256_S16x256_S2x16_1_1_0_0_n_n : DotDims S2x256 S16x256 S2x16 where
  lhsContracting := [1]
  rhsContracting := [1]
  lhsNonContracting := [0]
  rhsNonContracting := [0]
  lhsBatch := []
  rhsBatch := []
  wf := dot_S2x256_S16x256_S2x16_1_1_0_0_n_n_wf
def dot_S2x16_S256x16_S2x256_1_1_0_0_n_n : DotDims S2x16 S256x16 S2x256 where
  lhsContracting := [1]
  rhsContracting := [1]
  lhsNonContracting := [0]
  rhsNonContracting := [0]
  lhsBatch := []
  rhsBatch := []
  wf := dot_S2x16_S256x16_S2x256_1_1_0_0_n_n_wf

abbrev win0_0 : Pipeline.Window sig grid0 :=
  Pipeline.Window.ofSpec (Memref.whole main_v1) S2x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2x4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x256x4096 : Shape := ⟨3, ![32, 256, 4096]⟩
abbrev S1x1 : Shape := ⟨2, ![1, 1]⟩
abbrev S_ : Shape := ⟨0, ![]⟩
abbrev S1x1x1x1 : Shape := ⟨4, ![1, 1, 1, 1]⟩
abbrev S1x16x1x256 : Shape := ⟨4, ![1, 16, 1, 256]⟩
abbrev S1x256x1x16 : Shape := ⟨4, ![1, 256, 1, 16]⟩
abbrev S1x16 : Shape := ⟨2, ![1, 16]⟩
abbrev S16x1 : Shape := ⟨2, ![16, 1]⟩
abbrev S1x256 : Shape := ⟨2, ![1, 256]⟩
abbrev S256x1 : Shape := ⟨2, ![256, 1]⟩
abbrev S1x256x4096 : Shape := ⟨3, ![1, 256, 4096]⟩
abbrev S256x4096 : Shape := ⟨2, ![256, 4096]⟩

abbrev nBuf : Space → Nat
  | .hbm => 33
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S32x256x4096, .f32⟩
  | .hbm, ⟨6, _⟩ => ⟨S1x1, .i32⟩
  | .hbm, ⟨7, _⟩ => ⟨S1x1, .i32⟩
  | .hbm, ⟨8, _⟩ => ⟨S_, .i32⟩
  | .hbm, ⟨9, _⟩ => ⟨S1x1, .i32⟩
  | .hbm, ⟨10, _⟩ => ⟨S1x1, .i32⟩
  | .hbm, ⟨11, _⟩ => ⟨S1x1, .i1⟩
  | .hbm, ⟨12, _⟩ => ⟨S1x1, .f32⟩
  | .hbm, ⟨13, _⟩ => ⟨S1x1x1x1, .f32⟩
  | .hbm, ⟨14, _⟩ => ⟨S1x16x1x256, .f32⟩
  | .hbm, ⟨15, _⟩ => ⟨S1x16x1x256, .f32⟩
  | .hbm, ⟨16, _⟩ => ⟨S1x16x1x256, .f32⟩
  | .hbm, ⟨17, _⟩ => ⟨S16x256, .f32⟩
  | .hbm, ⟨18, _⟩ => ⟨S1x1x1x1, .f32⟩
  | .hbm, ⟨19, _⟩ => ⟨S1x256x1x16, .f32⟩
  | .hbm, ⟨20, _⟩ => ⟨S1x256x1x16, .f32⟩
  | .hbm, ⟨21, _⟩ => ⟨S1x256x1x16, .f32⟩
  | .hbm, ⟨22, _⟩ => ⟨S256x16, .f32⟩
  | .hbm, ⟨23, _⟩ => ⟨S1x16, .f32⟩
  | .hbm, ⟨24, _⟩ => ⟨S1x16, .f32⟩
  | .hbm, ⟨25, _⟩ => ⟨S16, .f32⟩
  | .hbm, ⟨26, _⟩ => ⟨S16x1, .f32⟩
  | .hbm, ⟨27, _⟩ => ⟨S1x256, .f32⟩
  | .hbm, ⟨28, _⟩ => ⟨S1x256, .f32⟩
  | .hbm, ⟨29, _⟩ => ⟨S256, .f32⟩
  | .hbm, ⟨30, _⟩ => ⟨S256x1, .f32⟩
  | .hbm, ⟨31, _⟩ => ⟨S32x256x4096, .f32⟩
  | .hbm, ⟨32, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S16x256, .f32⟩
  | .local _ .vmem, ⟨3, _⟩ => ⟨S16x1, .f32⟩
  | .local _ .vmem, ⟨4, _⟩ => ⟨S256x16, .f32⟩
  | .local _ .vmem, ⟨5, _⟩ => ⟨S256x1, .f32⟩
  | .local _ .vmem, ⟨6, _⟩ => ⟨S1x256x4096, .f32⟩
  | .local _ .vmem, ⟨7, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  bcast_S_S1x1 : S_.BroadcastsInDim S1x1 (![] : Fin 0 → Fin S1x1.rank)
  bcast_S1x1_S1x1x1x1_0_2 : S1x1.BroadcastsInDim S1x1x1x1 (![0, 2] : Fin 2 → Fin S1x1x1x1.rank)
  bcast_S16x256_S1x16x1x256_1_3 : S16x256.BroadcastsInDim S1x16x1x256 (![1, 3] : Fin 2 → Fin S1x16x1x256.rank)
  bcast_S1x1x1x1_S1x16x1x256_0_1_2_3 : S1x1x1x1.BroadcastsInDim S1x16x1x256 (![0, 1, 2, 3] : Fin 4 → Fin S1x16x1x256.rank)
  shapeCasts_S1x16x1x256_S16x256 : S1x16x1x256.ShapeCasts S16x256
  bcast_S256x16_S1x256x1x16_1_3 : S256x16.BroadcastsInDim S1x256x1x16 (![1, 3] : Fin 2 → Fin S1x256x1x16.rank)
  bcast_S1x1x1x1_S1x256x1x16_0_1_2_3 : S1x1x1x1.BroadcastsInDim S1x256x1x16 (![0, 1, 2, 3] : Fin 4 → Fin S1x256x1x16.rank)
  shapeCasts_S1x256x1x16_S256x16 : S1x256x1x16.ShapeCasts S256x16
  shapeCasts_S16_S1x16 : S16.ShapeCasts S1x16
  bcast_S1x16_S1x16_0_1 : S1x16.BroadcastsInDim S1x16 (![0, 1] : Fin 2 → Fin S1x16.rank)
  shapeCasts_S1x16_S16 : S1x16.ShapeCasts S16
  shapeCasts_S16_S16x1 : S16.ShapeCasts S16x1
  shapeCasts_S256_S1x256 : S256.ShapeCasts S1x256
  bcast_S1x256_S1x256_0_1 : S1x256.BroadcastsInDim S1x256 (![0, 1] : Fin 2 → Fin S1x256.rank)
  shapeCasts_S1x256_S256 : S1x256.ShapeCasts S256
  shapeCasts_S256_S256x1 : S256.ShapeCasts S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  shapeCasts_S256x4096_S1x256x4096 : S256x4096.ShapeCasts S1x256x4096
  shapeCasts_S32x256x4096_S32x256x64x64 : S32x256x4096.ShapeCasts S32x256x64x64
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S32x256x4096.size a
  hwx0_5 : ∀ i : grid0.Coords, EltTy.bits .f32 = 32 ∨ (Rect.block (s := S32x256x4096) S1x256x4096.size (cc0_transform_5 i) (hinb0_5 i)).WholeWords (EltTy.packing .f32)

variable [Facts₀]

def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The squeeze-and-excite layer as ONE function of the five argument arrays, index by index, on the extended reals.

  For a batch entry `b` and a channel `c` the GATE is
    logistic ( Σ_r  max ( Σ_c' ((Σ_k x[b, c', k]) · 2⁻¹²) · w1[r, c'] + b1[r] , 0 ) · w2[c, r] + b2[c] ),
  where `k` runs over the 4096 spatial positions of the 64 × 64 plane in row-major order, and the result at
  `(b, c, i, j)` is `x[b, c, i, j]` times the gate of `(b, c)`. The gate is stated over plain families indexed by
  `Fin` coordinates (`gateOf`), so that a block of either program — whatever the order of its axes — is an
  instance of it; `gateOfT` is the same expression with the two factors of every product exchanged (a matrix
  applied from the left instead of from the right), equal to it because multiplication of extended reals commutes.
-/
import Idealize.ShloMosaic.PureOps.Ideal
import Idealize.ShloMosaic.Lib.ValueIdx

noncomputable section

open scoped BigOperators

namespace Cert.SE

open Idealize.ShloMosaic Idealize.ShloMosaic.ValueIdx

abbrev SX : Shape := ⟨4, ![32, 256, 64, 64]⟩
abbrev SW1 : Shape := ⟨2, ![16, 256]⟩
abbrev SB1 : Shape := ⟨1, ![16]⟩
abbrev SW2 : Shape := ⟨2, ![256, 16]⟩
abbrev SB2 : Shape := ⟨1, ![256]⟩

/-- The mean's factor, `2⁻¹²` as the f32 word both programs carry. -/
def scale : EReal := Ideal.ofBits .f32 0x39800000#32
/-- The rectifier's floor, the f32 zero word both programs carry. -/
def floor0 : EReal := Ideal.ofBits .f32 0x00000000#32

/-- The gate of channel `c` from one batch entry's rows `xs c' k` (channel `c'`, spatial position `k`). -/
def gateOf (xs : Fin 256 → Fin 4096 → EReal) (w1 : Fin 16 → Fin 256 → EReal) (b1 : Fin 16 → EReal)
    (w2 : Fin 256 → Fin 16 → EReal) (b2 : Fin 256 → EReal) (c : Fin 256) : EReal :=
  Ideal.logistic ((∑ r : Fin 16, max ((∑ c' : Fin 256, ((∑ k : Fin 4096, xs c' k) * scale) * w1 r c') + b1 r) floor0 * w2 c r) + b2 c)

/-- The same with every product's factors exchanged: the weights applied from the left. -/
def gateOfT (xs : Fin 256 → Fin 4096 → EReal) (w1 : Fin 16 → Fin 256 → EReal) (b1 : Fin 16 → EReal)
    (w2 : Fin 256 → Fin 16 → EReal) (b2 : Fin 256 → EReal) (c : Fin 256) : EReal :=
  Ideal.logistic ((∑ r : Fin 16, w2 c r * max ((∑ c' : Fin 256, w1 r c' * ((∑ k : Fin 4096, xs c' k) * scale)) + b1 r) floor0) + b2 c)

/-- Multiplication of extended reals commutes, so the two arrangements are one function. -/
theorem gateOfT_eq (xs : Fin 256 → Fin 4096 → EReal) (w1 : Fin 16 → Fin 256 → EReal) (b1 : Fin 16 → EReal)
    (w2 : Fin 256 → Fin 16 → EReal) (b2 : Fin 256 → EReal) (c : Fin 256) :
    gateOfT xs w1 b1 w2 b2 c = gateOf xs w1 b1 w2 b2 c := by
  unfold gateOfT gateOf
  refine congrArg (fun s => Ideal.logistic (s + b2 c)) (Finset.sum_congr rfl fun r _ => ?_)
  rw [mul_comm]
  refine congrArg (fun s => max (s + b1 r) floor0 * w2 c r) (Finset.sum_congr rfl fun c' _ => ?_)
  rw [mul_comm]

/-- The spatial position with row-major number `k` in the plane of batch entry `b`, channel `c`. -/
def pos (b : Fin 32) (c : Fin 256) (k : Fin 4096) : SX.Idx :=
  ix4 b c ⟨k.val / 64, by have := k.isLt; omega⟩ ⟨k.val % 64, Nat.mod_lt _ (by norm_num)⟩

/-- THE RESULT: each element of `x` times the gate of its batch entry and channel. -/
def G (x : SX.Idx → EReal) (w1 : SW1.Idx → EReal) (b1 : SB1.Idx → EReal) (w2 : SW2.Idx → EReal) (b2 : SB2.Idx → EReal) :
    SX.Idx → EReal := fun i =>
  x i * gateOf (fun c' k => x (pos (i 0) c' k)) (fun r c' => w1 (ix2 r c')) (fun r => b1 (ix1 r))
    (fun c r => w2 (ix2 c r)) (fun c => b2 (ix1 c)) (i 1)

end Cert.SE

end
-- ==== Proof.KernelPay.lean ====
/-
  The squeeze-and-excite body of the kernel read at one element of its block.

  A block holds two batch entries as a [2, 4096, 256] array: (batch entry in the block, spatial position, channel).
  Read at `(bb, k, c)`, what the body stores is the block's element there times the gate of channel `c` computed
  from batch entry `bb`'s rows: the column sums over the 4096 positions scaled by 2⁻¹², the first matrix product
  contracted over the 256 channels plus its bias and floored at zero, the second product contracted over the 16 hidden
  units plus its bias, and the logistic function — `Cert.SE.gateOf` of the block's rows.
-/
import proofs.«104086_g2000609462483817_pallasbulk_97_12_alg».proof.Proof.Gen.KernelIdeal.Skeleton
import proofs.«104086_g2000609462483817_pallasbulk_97_12_alg».proof.Proof.Spec
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The first product's dimension numbers: both operands contracted over their last axis. -/
abbrev D1 : DotDims S2x256 S16x256 S2x16 := dot_S2x256_S16x256_S2x16_1_1_0_0_n_n
/-- The second product's. -/
abbrev D2 : DotDims S2x16 S256x16 S2x256 := dot_S2x16_S256x16_S2x256_1_1_0_0_n_n

/-! ## The two products' operand indices, coordinate by coordinate -/

theorem lhs1_0 (i : S2x16.Idx) (q : D1.contr.Idx) : (D1.lhsIdx i q 0).val = (i 0).val := by
  unfold DotDims.lhsIdx
  rw [dif_neg (show ¬(0 : Fin S2x256.rank) ∈ D1.lhsBatch by decide), dif_pos (show (0 : Fin S2x256.rank) ∈ D1.lhsNonContracting by decide)]
  rfl
theorem lhs1_1 (i : S2x16.Idx) (q : D1.contr.Idx) : (D1.lhsIdx i q 1).val = (q ⟨0, by decide⟩).val :=
  D1.lhsIdx_val_of_single rfl i q
theorem rhs1_0 (i : S2x16.Idx) (q : D1.contr.Idx) : (D1.rhsIdx i q 0).val = (i 1).val := by
  unfold DotDims.rhsIdx
  rw [dif_neg (show ¬(0 : Fin S16x256.rank) ∈ D1.rhsBatch by decide), dif_pos (show (0 : Fin S16x256.rank) ∈ D1.rhsNonContracting by decide)]
  rfl
theorem rhs1_1 (i : S2x16.Idx) (q : D1.contr.Idx) : (D1.rhsIdx i q 1).val = (q ⟨0, by decide⟩).val :=
  D1.rhsIdx_val_of_single rfl i q

theorem lhs2_0 (i : S2x256.Idx) (q : D2.contr.Idx) : (D2.lhsIdx i q 0).val = (i 0).val := by
  unfold DotDims.lhsIdx
  rw [dif_neg (show ¬(0 : Fin S2x16.rank) ∈ D2.lhsBatch by decide), dif_pos (show (0 : Fin S2x16.rank) ∈ D2.lhsNonContracting by decide)]
  rfl
theorem lhs2_1 (i : S2x256.Idx) (q : D2.contr.Idx) : (D2.lhsIdx i q 1).val = (q ⟨0, by decide⟩).val :=
  D2.lhsIdx_val_of_single rfl i q
theorem rhs2_0 (i : S2x256.Idx) (q : D2.contr.Idx) : (D2.rhsIdx i q 0).val = (i 1).val := by
  unfold DotDims.rhsIdx
  rw [dif_neg (show ¬(0 : Fin S256x16.rank) ∈ D2.rhsBatch by decide), dif_pos (show (0 : Fin S256x16.rank) ∈ D2.rhsNonContracting by decide)]
  rfl
theorem rhs2_1 (i : S2x256.Idx) (q : D2.contr.Idx) : (D2.rhsIdx i q 1).val = (q ⟨0, by decide⟩).val :=
  D2.rhsIdx_val_of_single rfl i q

/-! ## Each stage at an index -/

/-- The first product into a zero accumulator: the sum over the channels of row `bb` of the left operand times row `r` of
    the right one. -/
theorem fc1_apply (p : FVec Ideal S2x256 .f32) (w : FVec Ideal S16x256 .f32) (bb : Fin 2) (r : Fin 16) :
    matmul D1 none p w (constant (F := Ideal) S2x16 .f32 0x00000000#32) (ix2 bb r) = ∑ c' : Fin 256, p (ix2 bb c') * w (ix2 r c') := by
  refine (Ideal.matmul_constant_zero_apply D1 none p w (ix2 bb r)).trans ?_
  rw [← Equiv.sum_comp (contrEquiv1 D1 256 rfl rfl).symm]
  refine Finset.sum_congr rfl fun k _ => ?_
  have hk := contrEquiv1_symm_val D1 256 rfl rfl k
  have el : D1.lhsIdx (ix2 bb r) ((contrEquiv1 D1 256 rfl rfl).symm k) = ix2 bb k := funext fun a => Fin.ext (by
    match a with
    | ⟨0, _⟩ => exact lhs1_0 _ _
    | ⟨1, _⟩ => exact (lhs1_1 _ _).trans hk)
  have er : D1.rhsIdx (ix2 bb r) ((contrEquiv1 D1 256 rfl rfl).symm k) = ix2 r k := funext fun a => Fin.ext (by
    match a with
    | ⟨0, _⟩ => exact rhs1_0 _ _
    | ⟨1, _⟩ => exact (rhs1_1 _ _).trans hk)
  rw [el, er]

/-- The second product likewise, contracted over the 16 hidden units. -/
theorem fc2_apply (p : FVec Ideal S2x16 .f32) (w : FVec Ideal S256x16 .f32) (bb : Fin 2) (c : Fin 256) :
    matmul D2 none p w (constant (F := Ideal) S2x256 .f32 0x00000000#32) (ix2 bb c) = ∑ r : Fin 16, p (ix2 bb r) * w (ix2 c r) := by
  refine (Ideal.matmul_constant_zero_apply D2 none p w (ix2 bb c)).trans ?_
  rw [← Equiv.sum_comp (contrEquiv1 D2 16 rfl rfl).symm]
  refine Finset.sum_congr rfl fun k _ => ?_
  have hk := contrEquiv1_symm_val D2 16 rfl rfl k
  have el : D2.lhsIdx (ix2 bb c) ((contrEquiv1 D2 16 rfl rfl).symm k) = ix2 bb k := funext fun a => Fin.ext (by
    match a with
    | ⟨0, _⟩ => exact lhs2_0 _ _
    | ⟨1, _⟩ => exact (lhs2_1 _ _).trans hk)
  have er : D2.rhsIdx (ix2 bb c) ((contrEquiv1 D2 16 rfl rfl).symm k) = ix2 c k := funext fun a => Fin.ext (by
    match a with
    | ⟨0, _⟩ => exact rhs2_0 _ _
    | ⟨1, _⟩ => exact (rhs2_1 _ _).trans hk)
  rw [el, er]

/-- The sum over the spatial axis, scaled: at `(bb, c')` the 4096 entries of column `c'` of batch entry `bb` added, times 2⁻¹². -/
theorem pooled_apply (x : FVec Ideal S2x4096x256 .f32) (bb : Fin 2) (c' : Fin 256) :
    mulf (multiReduction .add [1] S2x256 x 0x00000000#32 reduces_S2x4096x256_S2x256 (.inl rfl) rfl)
        (broadcast S2x256 (Scalar.ofBits (F := Ideal) .f32 0x39800000#32)) (ix2 bb c')
      = (∑ k : Fin 4096, x (ix3 bb k c')) * Cert.SE.scale := by
  refine (mulf_apply _ _ _).trans ?_
  refine congrArg (· * Cert.SE.scale) ?_
  refine (Ideal.multiReduction_add_single x 0x00000000#32 reduces_S2x4096x256_S2x256 (.inl rfl) rfl (ix2 bb c')).trans ?_
  refine Finset.sum_congr rfl fun k _ => congrArg x ?_
  funext a
  match a with
  | ⟨0, _⟩ => rfl
  | ⟨1, _⟩ => rfl
  | ⟨2, _⟩ => rfl

/-- A vector added along the rows of a two-row matrix reads its own entry. -/
theorem rowbias16_apply (b : FVec Ideal S16 .f32) (h1 : S16.ShapeCasts S1x16) (h2 : S1x16.Broadcasts S2x16) (bb : Fin 2) (r : Fin 16) :
    broadcastTo S2x16 (shapeCast S1x16 b h1) h2 (ix2 bb r) = b (ix1 r) :=
  (broadcastTo_1b_ab_apply _ h2 bb r).trans (shapeCast_a_1a_apply b h1 0 r)
theorem rowbias256_apply (b : FVec Ideal S256 .f32) (h1 : S256.ShapeCasts S1x256) (h2 : S1x256.Broadcasts S2x256) (bb : Fin 2) (c : Fin 256) :
    broadcastTo S2x256 (shapeCast S1x256 b h1) h2 (ix2 bb c) = b (ix1 c) :=
  (broadcastTo_1b_ab_apply _ h2 bb c).trans (shapeCast_a_1a_apply b h1 0 c)

/-- The hidden layer: product, bias, floor at zero. -/
theorem hidden_apply (p : FVec Ideal S2x256 .f32) (w : FVec Ideal S16x256 .f32) (b : FVec Ideal S16 .f32)
    (h1 : S16.ShapeCasts S1x16) (h2 : S1x16.Broadcasts S2x16) (bb : Fin 2) (r : Fin 16) :
    maximumf (addf (matmul D1 none p w (constant (F := Ideal) S2x16 .f32 0x00000000#32)) (broadcastTo S2x16 (shapeCast S1x16 b h1) h2))
        (broadcast S2x16 (Scalar.ofBits (F := Ideal) .f32 0x00000000#32)) (ix2 bb r)
      = max ((∑ c' : Fin 256, p (ix2 bb c') * w (ix2 r c')) + b (ix1 r)) Cert.SE.floor0 := by
  refine (maximumf_apply _ _ _).trans ?_
  refine congrArg (fun s => max s Cert.SE.floor0) ?_
  refine (addf_apply _ _ _).trans ?_
  rw [fc1_apply, rowbias16_apply]

/-- The logistic function of a vector reads, at an index, the logistic function of the element. -/
theorem logistic_apply {s : Shape} {φ : FTy} (a : FVec Ideal s φ) (i : s.Idx) : logistic a i = Ideal.logistic (a i) := rfl

/-- The gate: product, bias, logistic. -/
theorem gate_apply (p : FVec Ideal S2x16 .f32) (w : FVec Ideal S256x16 .f32) (b : FVec Ideal S256 .f32)
    (h1 : S256.ShapeCasts S1x256) (h2 : S1x256.Broadcasts S2x256) (bb : Fin 2) (c : Fin 256) :
    logistic (addf (matmul D2 none p w (constant (F := Ideal) S2x256 .f32 0x00000000#32)) (broadcastTo S2x256 (shapeCast S1x256 b h1) h2)) (ix2 bb c)
      = Ideal.logistic ((∑ r : Fin 16, p (ix2 bb r) * w (ix2 c r)) + b (ix1 c)) := by
  refine (logistic_apply _ _).trans ?_
  refine congrArg Ideal.logistic ?_
  refine (addf_apply _ _ _).trans ?_
  rw [fc2_apply, rowbias256_apply]

/-- The gate spread over the spatial axis: every position of batch entry `bb` reads the gate of its channel. -/
theorem spread_apply (g : FVec Ideal S2x256 .f32) (h1 : S2x256.ShapeCasts S2x1x256) (h2 : S2x1x256.Broadcasts S2x4096x256)
    (bb : Fin 2) (k : Fin 4096) (c : Fin 256) :
    broadcastTo S2x4096x256 (shapeCast S2x1x256 g h1) h2 (ix3 bb k c) = g (ix2 bb c) := by
  refine (broadcastTo_apply _ h2 (ix3 bb k c) (ix3 bb (0 : Fin 1) c) fun a => ?_).trans ?_
  · match a with
    | ⟨0, _⟩ => rfl
    | ⟨1, _⟩ => rfl
    | ⟨2, _⟩ => rfl
  · exact shapeCast_apply g h1 (ix3 bb (0 : Fin 1) c) (ix2 bb c) (by
      rw [Shape.rowMajor_val_two, Shape.rowMajor_val_three]
      show bb.val * 256 + c.val = (bb.val * 1 + 0) * 256 + c.val
      omega)

/-! ## The payload -/

/-- WHAT THE BODY STORES at `(bb, k, c)`: the block's element times the gate of channel `c` from batch entry `bb`'s rows. -/
theorem pay_apply (x0 : FVec Ideal S2x4096x256 .f32) (W1 : FVec Ideal S16x256 .f32) (B1 : FVec Ideal S16 .f32)
    (W2 : FVec Ideal S256x16 .f32) (B2 : FVec Ideal S256 .f32) (bb : Fin 2) (k : Fin 4096) (c : Fin 256) :
    k0_pay1 x0 W1 B1 W2 B2 (ix3 bb k c)
      = x0 (ix3 bb k c) * Cert.SE.gateOf (fun c' k' => x0 (ix3 bb k' c')) (fun r c' => W1 (ix2 r c')) (fun r => B1 (ix1 r))
          (fun c r => W2 (ix2 c r)) (fun c => B2 (ix1 c)) c := by
  unfold k0_pay1
  dsimp only
  refine (mulf_apply _ _ _).trans ?_
  refine congrArg₂ (· * ·) (congrFun (shapeCast_self x0 _) _) ?_
  refine (spread_apply _ _ _ bb k c).trans ?_
  refine (gate_apply _ W2 B2 _ _ bb c).trans ?_
  unfold Cert.SE.gateOf
  refine congrArg (fun s => Ideal.logistic (s + B2 (ix1 c))) (Finset.sum_congr rfl fun r _ => ?_)
  refine congrArg (· * W2 (ix2 c r)) ?_
  refine (hidden_apply _ W1 B1 _ _ bb r).trans ?_
  refine congrArg (fun s => max (s + B1 (ix1 r)) Cert.SE.floor0) (Finset.sum_congr rfl fun c' _ => ?_)
  refine congrArg (· * W1 (ix2 r c')) ?_
  refine (pooled_apply _ bb c').trans ?_
  exact congrArg (· * Cert.SE.scale) (Finset.sum_congr rfl fun k' _ => congrFun (shapeCast_self x0 _) _)

end Cert.KernelIdeal.Hand

end
-- ==== Proof.KernelArr.lean ====
/-
  The region's output as one function of the arrays the region reads, and the layout changes around the region.

  The region reads `X = reshape (transpose x)`, the input with the channel axis moved last and the plane flattened:
  `X[b, k, c] = x[b, c, k / 64, k % 64]`. Its output `O` is moved back the same way:
  `result[b, c, i, j] = O[b, 64 i + j, c]`. With `O = K3 X …` (the element times the gate of its channel from its
  batch entry's rows) the result is `Cert.SE.G` of the arguments.
-/
import proofs.«104086_g2000609462483817_pallasbulk_97_12_alg».proof.Proof.KernelPay
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- The region's output as one function of the arrays it reads: the element times the gate of its channel from its
    batch entry's rows. -/
def K3 (X : S32x4096x256.Idx → EReal) (W1 : S16x256.Idx → EReal) (B1 : S16.Idx → EReal) (W2 : S256x16.Idx → EReal)
    (B2 : S256.Idx → EReal) : S32x4096x256.Idx → EReal := fun i =>
  X i * Cert.SE.gateOf (fun c' k' => X (ix3 (⟨(i 0).val, (i 0).isLt⟩ : Fin 32) k' c')) (fun r c' => W1 (ix2 r c')) (fun r => B1 (ix1 r))
    (fun c r => W2 (ix2 c r)) (fun c => B2 (ix1 c)) (⟨(i 2).val, (i 2).isLt⟩ : Fin 256)

/-- `K3` at an index given by coordinates. -/
theorem K3_apply (X : S32x4096x256.Idx → EReal) (W1 : S16x256.Idx → EReal) (B1 : S16.Idx → EReal) (W2 : S256x16.Idx → EReal)
    (B2 : S256.Idx → EReal) (b : Fin 32) (k : Fin 4096) (c : Fin 256) :
    K3 X W1 B1 W2 B2 (ix3 b k c) = X (ix3 b k c) * Cert.SE.gateOf (fun c' k' => X (ix3 b k' c')) (fun r c' => W1 (ix2 r c'))
      (fun r => B1 (ix1 r)) (fun c r => W2 (ix2 c r)) (fun c => B2 (ix1 c)) c := rfl

/-- A block whose rows are rows `2T` and `2T + 1` of `X`, with the weights whole, stores block `T` of `K3`. -/
theorem block_eq (x0 : FVec Ideal S2x4096x256 .f32) (w1 : FVec Ideal S16x256 .f32) (b1 : FVec Ideal S16 .f32)
    (w2 : FVec Ideal S256x16 .f32) (b2 : FVec Ideal S256 .f32) (X : S32x4096x256.Idx → EReal) (T : Nat) (hT : T < 16)
    (hx : ∀ (bb : Fin 2) (k : Fin 4096) (c : Fin 256), x0 (ix3 bb k c) = X (ix3 (⟨2 * T + bb.val, by omega⟩ : Fin 32) k c))
    (bb : Fin 2) (k : Fin 4096) (c : Fin 256) :
    k0_pay1 (F := Ideal) x0 w1 b1 w2 b2 (ix3 bb k c) = K3 X w1 b1 w2 b2 (ix3 (⟨2 * T + bb.val, by omega⟩ : Fin 32) k c) := by
  rw [pay_apply, K3_apply, hx bb k c]
  refine congrArg (fun f => X (ix3 (⟨2 * T + bb.val, by omega⟩ : Fin 32) k c) * Cert.SE.gateOf f (fun r c' => w1 (ix2 r c')) (fun r => b1 (ix1 r))
    (fun c r => w2 (ix2 c r)) (fun c => b2 (ix1 c)) c) ?_
  funext c' k'
  exact hx bb k' c'

/-- The region's input at `(b, k, c)` is the argument at channel `c`, position `k` of the plane. -/
theorem input_apply (x : S32x256x64x64.Idx → EReal) (h1 : S32x256x64x64.Transposes [0, 2, 3, 1] S32x64x64x256)
    (h2 : S32x64x64x256.ShapeCasts S32x4096x256) (b : Fin 32) (k : Fin 4096) (c : Fin 256) :
    shapeCast S32x4096x256 (transpose S32x64x64x256 [0, 2, 3, 1] x h1) h2 (ix3 b k c) = x (Cert.SE.pos b c k) := by
  have hk : k.val < 4096 := k.isLt
  refine (shapeCast_apply _ h2 (ix3 b k c) (ix4 b (⟨k.val / 64, by omega⟩ : Fin 64) (⟨k.val % 64, by omega⟩ : Fin 64) c) (by
    rw [Shape.rowMajor_val_three, Shape.rowMajor_val_four]
    show ((b.val * 64 + k.val / 64) * 64 + k.val % 64) * 256 + c.val = (b.val * 4096 + k.val) * 256 + c.val
    omega)).trans ?_
  exact transpose_apply _ x h1 _ _ fun a => match a with | ⟨0, _⟩ => rfl | ⟨1, _⟩ => rfl | ⟨2, _⟩ => rfl | ⟨3, _⟩ => rfl

/-- The result at `(b, c, i, j)` is the region's output at position `64 i + j` of batch entry `b`, channel `c`. -/
theorem output_apply (O : S32x4096x256.Idx → EReal) (h1 : S32x4096x256.ShapeCasts S32x64x64x256)
    (h2 : S32x64x64x256.Transposes [0, 3, 1, 2] S32x256x64x64) (b : Fin 32) (c : Fin 256) (i j : Fin 64) :
    transpose S32x256x64x64 [0, 3, 1, 2] (shapeCast S32x64x64x256 O h1) h2 (ix4 b c i j)
      = O (ix3 b (⟨i.val * 64 + j.val, by omega⟩ : Fin 4096) c) := by
  refine (transpose_apply _ _ h2 (ix4 b c i j) (ix4 b i j c)
    fun a => match a with | ⟨0, _⟩ => rfl | ⟨1, _⟩ => rfl | ⟨2, _⟩ => rfl | ⟨3, _⟩ => rfl).trans ?_
  exact shapeCast_apply O h1 (ix4 b i j c) _ (by
    rw [Shape.rowMajor_val_three, Shape.rowMajor_val_four]
    show (b.val * 4096 + (i.val * 64 + j.val)) * 256 + c.val = ((b.val * 64 + i.val) * 64 + j.val) * 256 + c.val
    omega)

/-- Position `64 i + j` of a plane is its entry `(i, j)`. -/
theorem pos_flat (b : Fin 32) (c : Fin 256) (i j : Fin 64) :
    Cert.SE.pos b c (⟨i.val * 64 + j.val, by omega⟩ : Fin 4096) = ix4 b c i j := by
  unfold Cert.SE.pos
  funext a
  apply Fin.ext
  match a with
  | ⟨0, _⟩ => rfl
  | ⟨1, _⟩ => rfl
  | ⟨2, _⟩ => show (i.val * 64 + j.val) / 64 = i.val; omega
  | ⟨3, _⟩ => show (i.val * 64 + j.val) % 64 = j.val; omega

/-- THE PROGRAM'S RESULT from its arguments: the layout changes around `K3` give `Cert.SE.G`. -/
theorem result_eq (x : S32x256x64x64.Idx → EReal) (w1 : S16x256.Idx → EReal) (b1 : S16.Idx → EReal) (w2 : S256x16.Idx → EReal)
    (b2 : S256.Idx → EReal) (h1 : S32x256x64x64.Transposes [0, 2, 3, 1] S32x64x64x256) (h2 : S32x64x64x256.ShapeCasts S32x4096x256)
    (h3 : S32x4096x256.ShapeCasts S32x64x64x256) (h4 : S32x64x64x256.Transposes [0, 3, 1, 2] S32x256x64x64) :
    transpose S32x256x64x64 [0, 3, 1, 2]
        (shapeCast S32x64x64x256 (K3 (shapeCast S32x4096x256 (transpose S32x64x64x256 [0, 2, 3, 1] x h1) h2) w1 b1 w2 b2) h3) h4
      = Cert.SE.G x w1 b1 w2 b2 := by
  funext q
  obtain ⟨b, c, i, j, rfl⟩ : ∃ (b : Fin 32) (c : Fin 256) (i j : Fin 64), q = ix4 b c i j := ⟨q 0, q 1, q 2, q 3, eq_ix4 q⟩
  rw [output_apply, K3_apply, input_apply, pos_flat]
  show _ = x (ix4 b c i j) * Cert.SE.gateOf (fun c' k => x (Cert.SE.pos b c' k)) (fun r c' => w1 (ix2 r c')) (fun r => b1 (ix1 r))
    (fun c r => w2 (ix2 c r)) (fun c => b2 (ix1 c)) c
  refine congrArg (fun f => x (ix4 b c i j) * Cert.SE.gateOf f (fun r c' => w1 (ix2 r c')) (fun r => b1 (ix1 r))
    (fun c r => w2 (ix2 c r)) (fun c => b2 (ix1 c)) c) ?_
  funext c' k'
  exact input_apply x h1 h2 b k' c'

end Cert.KernelIdeal.Hand

end
-- ==== Proof.KernelBlocks.lean ====
/-
  From the kernel's blocks to its output array.

  The region's input array `X` is [32, 4096, 256] (batch entry, spatial position, channel); grid point `t` stages batch
  entries `2t` and `2t + 1` whole and the four weight and bias arrays whole, and writes back block `t` of the output.
  What it writes back is block `t` of ONE function of the arrays the region reads (`K3`): at `(b, k, c)` the element
  `X[b, k, c]` times the gate of channel `c` from batch entry `b`'s rows. The sixteen blocks tile the output, so after the
  run the output array is that function.
-/
import proofs.«104086_g2000609462483817_pallasbulk_97_12_alg».proof.Proof.Gen.KernelIdeal.Frame
import proofs.«104086_g2000609462483817_pallasbulk_97_12_alg».proof.Proof.KernelArr
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the two streamed windows are at block `t` on the batch axis and at
    block 0 elsewhere; the weights' windows are at block 0. -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-- Window 0's block at point `t` is rows `2t`, `2t + 1` of the region's input array. -/
theorem iblk0_apply (c : Dev nD) (t : Fin cfg0.N) (ht : t.val < 16) (bb : Fin 2) (k : Fin 4096) (ch : Fin 256) :
    (iblk m c 0 t : FVec Ideal S2x4096x256 .f32) (ix3 bb k ch)
      = (V m c main_v1 : S32x4096x256.Idx → EReal) (ix3 (⟨2 * t.val + bb.val, by omega⟩ : Fin 32) k ch) := by
  obtain ⟨e0, e1, e2, -⟩ := idx_facts t
  unfold iblk
  rw [View.read_apply]
  show V m c main_v1 _ = V m c main_v1 _
  refine congrArg (V m c main_v1) ?_
  funext a; apply Fin.ext
  match a with
  | ⟨0, _⟩ => show win0_0.index t (0 : Fin 3) * 2 + 1 * bb.val = 2 * t.val + bb.val; rw [e0]; omega
  | ⟨1, _⟩ => show win0_0.index t (1 : Fin 3) * 4096 + 1 * k.val = k.val; rw [e1]; omega
  | ⟨2, _⟩ => show win0_0.index t (2 : Fin 3) * 256 + 1 * ch.val = ch.val; rw [e2]; omega

/-- The weights' and biases' windows hold their whole arrays at every point. -/
theorem iblk1_eq (c : Dev nD) (t : Fin cfg0.N) : (iblk m c 1 t : FVec Ideal S16x256 .f32) = V m c main_arg1 := by
  obtain ⟨-, -, -, -, -, -, e0, e1, -⟩ := idx_facts t
  funext y
  unfold iblk
  rw [View.read_apply]
  show V m c main_arg1 _ = V m c main_arg1 y
  refine congrArg (V m c main_arg1) ?_
  funext a; apply Fin.ext
  match a with
  | ⟨0, _⟩ => show win0_1.index t (0 : Fin 2) * 16 + 1 * (y 0).val = (y 0).val; rw [e0]; omega
  | ⟨1, _⟩ => show win0_1.index t (1 : Fin 2) * 256 + 1 * (y 1).val = (y 1).val; rw [e1]; omega
theorem iblk2_eq (c : Dev nD) (t : Fin cfg0.N) : (iblk m c 2 t : FVec Ideal S16 .f32) = V m c main_arg2 := by
  obtain ⟨-, -, -, -, -, -, -, -, e0, -⟩ := idx_facts t
  funext y
  unfold iblk
  rw [View.read_apply]
  show V m c main_arg2 _ = V m c main_arg2 y
  refine congrArg (V m c main_arg2) ?_
  funext a; apply Fin.ext
  match a with
  | ⟨0, _⟩ => show win0_2.index t (0 : Fin 1) * 16 + 1 * (y 0).val = (y 0).val; rw [e0]; omega
theorem iblk3_eq (c : Dev nD) (t : Fin cfg0.N) : (iblk m c 3 t : FVec Ideal S256x16 .f32) = V m c main_arg3 := by
  obtain ⟨-, -, -, -, -, -, -, -, -, e0, e1, -⟩ := idx_facts t
  funext y
  unfold iblk
  rw [View.read_apply]
  show V m c main_arg3 _ = V m c main_arg3 y
  refine congrArg (V m c main_arg3) ?_
  funext a; apply Fin.ext
  match a with
  | ⟨0, _⟩ => show win0_3.index t (0 : Fin 2) * 256 + 1 * (y 0).val = (y 0).val; rw [e0]; omega
  | ⟨1, _⟩ => show win0_3.index t (1 : Fin 2) * 16 + 1 * (y 1).val = (y 1).val; rw [e1]; omega
theorem iblk4_eq (c : Dev nD) (t : Fin cfg0.N) : (iblk m c 4 t : FVec Ideal S256 .f32) = V m c main_arg4 := by
  obtain ⟨-, -, -, -, -, -, -, -, -, -, -, e0⟩ := idx_facts t
  funext y
  unfold iblk
  rw [View.read_apply]
  show V m c main_arg4 _ = V m c main_arg4 y
  refine congrArg (V m c main_arg4) ?_
  funext a; apply Fin.ext
  match a with
  | ⟨0, _⟩ => show win0_4.index t (0 : Fin 1) * 256 + 1 * (y 0).val = (y 0).val; rw [e0]; omega

/-- WHAT POINT `t` WRITES BACK is block `t` of `K3` of the arrays as the region finds them. -/
theorem flushed_eq (c : Dev nD) (t : Fin cfg0.N) :
    (dats m 0 c).flushed 5 t = ((cfg0.win 5).blk t).view.read (Elt Ideal)
      (K3 (V m c main_v1) (V m c main_arg1) (V m c main_arg2) (V m c main_arg3) (V m c main_arg4)) := by
  have ht : t.val < 16 := Nat.lt_of_lt_of_eq t.isLt N_0
  show (cfg0.win 5).cut (grid0.coords t) ((dats m 0 c).after 5 t) = _
  rw [after0_5]
  unfold out0_5
  rw [View.canon_unit_zero hz3]
  simp only [View.ld_unit_zero (S := S2x4096x256) hz3, View.ld_unit_zero (S := S16x256) hz2, View.ld_unit_zero (S := S16) hz1,
    View.ld_unit_zero (S := S256x16) hz2, View.ld_unit_zero (S := S256) hz1]
  rw [iblk1_eq, iblk2_eq, iblk3_eq, iblk4_eq]
  obtain ⟨-, -, -, e0, e1, e2, -⟩ := idx_facts t
  have key : ∀ y : S2x4096x256.Idx,
      k0_pay1 (F := Ideal) (iblk m c 0 t) (V m c main_arg1) (V m c main_arg2) (V m c main_arg3) (V m c main_arg4) y
        = K3 (V m c main_v1) (V m c main_arg1) (V m c main_arg2) (V m c main_arg3) (V m c main_arg4) (((cfg0.win 5).blk t).view.emb y) := by
    intro y
    obtain ⟨bb, k, ch, rfl⟩ : ∃ (bb : Fin 2) (k : Fin 4096) (ch : Fin 256), y = ix3 bb k ch := ⟨y 0, y 1, y 2, eq_ix3 y⟩
    have hemb : ((cfg0.win 5).blk t).view.emb (ix3 bb k ch) = ix3 (⟨2 * t.val + bb.val, by omega⟩ : Fin 32) k ch := by
      funext a; apply Fin.ext
      match a with
      | ⟨0, _⟩ => show win0_5.index t (0 : Fin 3) * 2 + 1 * bb.val = 2 * t.val + bb.val; rw [e0]; omega
      | ⟨1, _⟩ => show win0_5.index t (1 : Fin 3) * 4096 + 1 * k.val = k.val; rw [e1]; omega
      | ⟨2, _⟩ => show win0_5.index t (2 : Fin 3) * 256 + 1 * ch.val = ch.val; rw [e2]; omega
    rw [hemb]
    exact block_eq _ _ _ _ _ _ t.val ht (fun bb k c' => iblk0_apply m c t ht bb k c') bb k ch
  funext j
  exact key j

/-- An index of the output is in point `t`'s block iff each coordinate is in the block's range on its axis. -/
theorem mem_blk5 (t : Fin cfg0.N) (i : S32x4096x256.Idx) :
    i ∈ ((cfg0.win 5).blk t).view.set ↔ ∀ a : Fin 3, win0_5.index t a * S2x4096x256.size a ≤ (i a).val
      ∧ (i a).val < win0_5.index t a * S2x4096x256.size a + S2x4096x256.size a := by
  show i ∈ ((View.whole main_v2).slice (win0_5.rect t)).set ↔ _
  rw [View.set_slice_whole, Rect.mem_set_unit]
  exact Iff.rfl

/-- Every index of the output lies in the block of the point that holds its batch entry. -/
theorem cover5 (i : S32x4096x256.Idx) : ∃ t : Fin cfg0.N, (cfg0.win 5).flush t = true ∧ i ∈ ((cfg0.win 5).blk t).view.set := by
  have h0 : (i 0).val < 32 := (i 0).isLt
  have h1 : (i 1).val < 4096 := (i 1).isLt
  have h2 : (i 2).val < 256 := (i 2).isLt
  obtain ⟨t, ht⟩ : ∃ t : Fin cfg0.N, t.val = (i 0).val / 2 := ⟨⟨(i 0).val / 2, by rw [show cfg0.N = 16 from N_0]; omega⟩, rfl⟩
  obtain ⟨-, -, -, e0, e1, e2, -⟩ := idx_facts t
  refine ⟨t, flush0_5 t, ?_⟩
  rw [mem_blk5]
  intro a
  match a with
  | ⟨0, _⟩ => show win0_5.index t (0 : Fin 3) * 2 ≤ (i 0).val ∧ (i 0).val < win0_5.index t (0 : Fin 3) * 2 + 2; rw [e0, ht]; omega
  | ⟨1, _⟩ => show win0_5.index t (1 : Fin 3) * 4096 ≤ (i 1).val ∧ (i 1).val < win0_5.index t (1 : Fin 3) * 4096 + 4096; rw [e1]; omega
  | ⟨2, _⟩ => show win0_5.index t (2 : Fin 3) * 256 ≤ (i 2).val ∧ (i 2).val < win0_5.index t (2 : Fin 3) * 256 + 256; rw [e2]; omega

/-- THE OUTPUT ARRAY after the run is `K3` of the arrays the region reads. -/
theorem final5 (c : Dev nD) : (dats m 0 c).arrAt 5 cfg0.N
    = K3 (V m c main_v1) (V m c main_arg1) (V m c main_arg2) (V m c main_arg3) (V m c main_arg4) :=
  (dats m 0 c).arrAt_eq_of_cover 5 _ (fun t _ => flushed_eq m c t) cover5

end Cert.KernelIdeal.Hand

end
-- ==== Proof.KernelRun.lean ====
/-
  The kernel program's run, read: its result array is `Cert.SE.G` of its arguments.

  Before the region the host moves the channel axis of `x` last and flattens the plane; after it the host unflattens the
  region's output and moves the channel axis back. The region's output is `K3` of what the region reads
  (`final5`), so the result is the layout changes around `K3` of the arguments, which is `Cert.SE.G` (`result_eq`).
-/
import proofs.«104086_g2000609462483817_pallasbulk_97_12_alg».proof.Proof.KernelBlocks
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The array the region reads through its first window: the argument with the channel axis moved last and the plane
    flattened. -/
theorem V_main_v1 (c : Dev nD) : (V m c main_v1 : S32x4096x256.Idx → EReal)
    = shapeCast S32x4096x256 (transpose S32x64x64x256 [0, 2, 3, 1] (m ((c : Thread nD τ).loc main_arg0) : S32x256x64x64.Idx → EReal)
        transposes_S32x256x64x64_S32x64x64x256_0_2_3_1) shapeCasts_S32x64x64x256_S32x4096x256 := by
  show StableHlo.after hostOps0 (fun b => m (c, b)) (Proc.devRef .tc main_v1) = _
  after_results
  rfl

/-- The program's result: the region's output array unflattened and the channel axis moved back. -/
theorem tail_v4 (c : Dev nD) : (Pipeline.afterTail₀ cfgs (dats m) 0 (V0 m) [hostOps1] c main_v4 : S32x256x64x64.Idx → EReal)
    = transpose S32x256x64x64 [0, 3, 1, 2]
        (shapeCast S32x64x64x256 ((dats m 0 c).arrAt 5 cfg0.N : S32x4096x256.Idx → EReal) shapeCasts_S32x4096x256_S32x64x64x256)
        transposes_S32x64x64x256_S32x256x64x64_0_3_1_2 := by
  unfold Pipeline.afterTail₀
  show StableHlo.after hostOps1 _ (Proc.devRef .tc main_v4) = _
  after_results
  refine congrArg (fun O : S32x4096x256.Idx → EReal => transpose S32x256x64x64 [0, 3, 1, 2]
    (shapeCast S32x64x64x256 O shapeCasts_S32x4096x256_S32x64x64x256) transposes_S32x64x64x256_S32x256x64x64_0_3_1_2) ?_
  exact Pipeline.withArrays_arr spec0 launch0.win.arr_inj c _ _ 5

/-- The result is `Cert.SE.G` of the arguments. -/
theorem result_v4 (c : Dev nD) : (Pipeline.afterTail₀ cfgs (dats m) 0 (V0 m) [hostOps1] c main_v4 : S32x256x64x64.Idx → EReal)
    = Cert.SE.G (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_v4, final5, V_main_v1, V_main_arg1, V_main_arg2, V_main_arg3, V_main_arg4]
  exact result_eq _ _ _ _ _ _ _ _ _

/-- THE RUN, READ: every weakly fair execution terminates with the result array at `Cert.SE.G` of the arguments and the
    arguments unchanged. -/
theorem run : θ_run defs (onTc (τ := τ) (main (F := Ideal))) ⟨m, fun _ => 0, ρ⟩ (fun r => ∀ c : Dev nD,
      r.2.mem ((c.tc : Thread nD τ).loc main_v4) = Cert.SE.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v4 (Pipeline.mem_restRefs_of main_v4 (by decide) (by decide))).trans (result_v4 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.KernelIdeal.Hand

end
-- ==== Proof.RefArr.lean ====
/-
  The reference's region output as one function of the arrays the region reads, and the host operations around the region.

  The region reads `X = reshape x`, the plane flattened: `X[b, c, k] = x[b, c, k / 64, k % 64]`; its weight arrays are the
  Kronecker products of the 1 × 1 identity with `w1` and `w2` — each entry `1 · w`, which is `w` — and its biases are
  `b1` and `b2` as columns. Its output `O` is unflattened: `result[b, c, i, j] = O[b, c, 64 i + j]`. With `O = R3 …`
  (the element times the gate of its channel from its batch entry's rows, the weights applied from the left) the result is
  `Cert.SE.G` of the arguments, because multiplication of extended reals commutes (`Cert.SE.gateOfT_eq`).
-/
import proofs.«104086_g2000609462483817_pallasbulk_97_12_alg».proof.ReferenceIdeal
import proofs.«104086_g2000609462483817_pallasbulk_97_12_alg».proof.Proof.Gen.ReferenceIdeal
import proofs.«104086_g2000609462483817_pallasbulk_97_12_alg».proof.Proof.Spec
import Idealize.ShloMosaic.Lib.ValueLayout
import Idealize.ShloMosaic.Lib.Pipeline.Value

noncomputable section

open scoped BigOperators

namespace Cert.ReferenceIdeal.Hand

open Idealize.ShloMosaic Idealize.ShloMosaic.ValueIdx Cert.ReferenceIdeal

/-- The region's output as one function of the arrays it reads: the element times the gate of its channel from its batch
    entry's rows. -/
def R3 (X : S32x256x4096.Idx → EReal) (W1 : S16x256.Idx → EReal) (B1 : S16x1.Idx → EReal) (W2 : S256x16.Idx → EReal)
    (B2 : S256x1.Idx → EReal) : S32x256x4096.Idx → EReal := fun i =>
  X i * Cert.SE.gateOfT (fun c' k' => X (ix3 (⟨(i 0).val, (i 0).isLt⟩ : Fin 32) c' k')) (fun r c' => W1 (ix2 r c'))
    (fun r => B1 (ix2 r (0 : Fin 1))) (fun c r => W2 (ix2 c r)) (fun c => B2 (ix2 c (0 : Fin 1))) (⟨(i 1).val, (i 1).isLt⟩ : Fin 256)

/-- `R3` at an index given by coordinates. -/
theorem R3_apply (X : S32x256x4096.Idx → EReal) (W1 : S16x256.Idx → EReal) (B1 : S16x1.Idx → EReal) (W2 : S256x16.Idx → EReal)
    (B2 : S256x1.Idx → EReal) (b : Fin 32) (c : Fin 256) (k : Fin 4096) :
    R3 X W1 B1 W2 B2 (ix3 b c k) = X (ix3 b c k) * Cert.SE.gateOfT (fun c' k' => X (ix3 b c' k')) (fun r c' => W1 (ix2 r c'))
      (fun r => B1 (ix2 r (0 : Fin 1))) (fun c r => W2 (ix2 c r)) (fun c => B2 (ix2 c (0 : Fin 1))) c := rfl

/-! ## The host operation after the region, and the result -/

/-- The result at `(b, c, i, j)` is the region's output at position `64 i + j` of batch entry `b`, channel `c`. -/
theorem output_apply (O : S32x256x4096.Idx → EReal) (h : S32x256x4096.ShapeCasts S32x256x64x64) (b : Fin 32) (c : Fin 256) (i j : Fin 64) :
    shapeCast S32x256x64x64 O h (ix4 b c i j) = O (ix3 b c (⟨i.val * 64 + j.val, by omega⟩ : Fin 4096)) :=
  shapeCast_apply O h (ix4 b c i j) _ (by
    rw [Shape.rowMajor_val_three, Shape.rowMajor_val_four]
    show (b.val * 256 + c.val) * 4096 + (i.val * 64 + j.val) = ((b.val * 256 + c.val) * 64 + i.val) * 64 + j.val
    omega)

/-- Position `64 i + j` of a plane is its entry `(i, j)`. -/
theorem pos_flat (b : Fin 32) (c : Fin 256) (i j : Fin 64) :
    Cert.SE.pos b c (⟨i.val * 64 + j.val, by omega⟩ : Fin 4096) = ix4 b c i j := by
  unfold Cert.SE.pos
  funext a
  apply Fin.ext
  match a with
  | ⟨0, _⟩ => rfl
  | ⟨1, _⟩ => rfl
  | ⟨2, _⟩ => show (i.val * 64 + j.val) / 64 = i.val; omega
  | ⟨3, _⟩ => show (i.val * 64 + j.val) % 64 = j.val; omega

/-- THE PROGRAM'S RESULT from its arguments: with the region's arrays read as the arguments entry by entry, unflattening
    `R3` gives `Cert.SE.G`. -/
theorem result_eq (x : S32x256x64x64.Idx → EReal) (w1 : S16x256.Idx → EReal) (b1 : S16.Idx → EReal) (w2 : S256x16.Idx → EReal)
    (b2 : S256.Idx → EReal) (X : S32x256x4096.Idx → EReal) (W1 : S16x256.Idx → EReal) (B1 : S16x1.Idx → EReal)
    (W2 : S256x16.Idx → EReal) (B2 : S256x1.Idx → EReal)
    (hX : ∀ (b : Fin 32) (c : Fin 256) (k : Fin 4096), X (ix3 b c k) = x (Cert.SE.pos b c k))
    (hW1 : ∀ (r : Fin 16) (c : Fin 256), W1 (ix2 r c) = w1 (ix2 r c)) (hB1 : ∀ r : Fin 16, B1 (ix2 r (0 : Fin 1)) = b1 (ix1 r))
    (hW2 : ∀ (c : Fin 256) (r : Fin 16), W2 (ix2 c r) = w2 (ix2 c r)) (hB2 : ∀ c : Fin 256, B2 (ix2 c (0 : Fin 1)) = b2 (ix1 c))
    (h : S32x256x4096.ShapeCasts S32x256x64x64) :
    shapeCast S32x256x64x64 (R3 X W1 B1 W2 B2) h = Cert.SE.G x w1 b1 w2 b2 := by
  funext q
  obtain ⟨b, c, i, j, rfl⟩ : ∃ (b : Fin 32) (c : Fin 256) (i j : Fin 64), q = ix4 b c i j := ⟨q 0, q 1, q 2, q 3, eq_ix4 q⟩
  rw [output_apply, R3_apply, hX, pos_flat, Cert.SE.gateOfT_eq]
  show _ = x (ix4 b c i j) * Cert.SE.gateOf (fun c' k => x (Cert.SE.pos b c' k)) (fun r c' => w1 (ix2 r c')) (fun r => b1 (ix1 r))
    (fun c r => w2 (ix2 c r)) (fun c => b2 (ix1 c)) c
  simp only [hX, hW1, hB1, hW2, hB2]

end Cert.ReferenceIdeal.Hand

end
-- ==== Proof.RefPay.lean ====
/-
  The reference's kernel body, read at one element.

  The body sees one batch entry as a block `x0 : [1, 256, 4096]` and the two weight matrices and bias columns whole.
  It sums each channel's 4096 positions, scales the sum by the f32 word for 2⁻¹², applies the first matrix and bias,
  floors at zero, applies the second matrix and bias, takes the logistic, and multiplies every position of channel
  `c` by that channel's value. Here each stage is named and read at an index; the last lemma states the stored
  value at `(0, c, k)` as the block's element times the gate of channel `c`, the weights applied from the left.
-/
import proofs.«104086_g2000609462483817_pallasbulk_97_12_alg».proof.Proof.Gen.ReferenceIdeal.Skeleton
import proofs.«104086_g2000609462483817_pallasbulk_97_12_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.SL.Sem

namespace Cert.ReferenceIdeal.Hand

open Cert.ReferenceIdeal Cert.ReferenceIdeal.Gen

/-- The first contraction, [16, 256] by [256, 1] into a zero accumulator, read at row `r`: the sum over the 256
    channels of the products. -/
theorem matmul1_apply (A : FVec Ideal S16x256 .f32) (B : FVec Ideal S256x1 .f32) (r : Fin 16) :
    matmul dot_S16x256_S256x1_S16x1_1_0_0_1_n_n none A B (constant (F := Ideal) S16x1 .f32 0x00000000#32) (ix2 r (0 : Fin 1))
      = ∑ c : Fin 256, A (ix2 r c) * B (ix2 c (0 : Fin 1)) := by
  show FloatOps.matmul _ none A B _ (ix2 r (0 : Fin 1)) = _
  rw [Ideal.matmul_constant_zero_apply, ← Equiv.sum_comp (contrEquiv1 dot_S16x256_S256x1_S16x1_1_0_0_1_n_n 256 rfl rfl).symm]
  refine Finset.sum_congr rfl fun c _ => ?_
  have c2 := contrEquiv1_symm_val dot_S16x256_S256x1_S16x1_1_0_0_1_n_n 256 rfl rfl c
  have l2 : dot_S16x256_S256x1_S16x1_1_0_0_1_n_n.lhsIdx (ix2 r (0 : Fin 1)) ((contrEquiv1 _ 256 rfl rfl).symm c) = ix2 r c := by
    funext ax; apply Fin.ext
    match ax with
    | ⟨0, _⟩ => simp [DotDims.lhsIdx, dot_S16x256_S256x1_S16x1_1_0_0_1_n_n] <;> rfl
    | ⟨1, _⟩ => simp [DotDims.lhsIdx, dot_S16x256_S256x1_S16x1_1_0_0_1_n_n] <;> exact c2
  have r2 : dot_S16x256_S256x1_S16x1_1_0_0_1_n_n.rhsIdx (ix2 r (0 : Fin 1)) ((contrEquiv1 _ 256 rfl rfl).symm c) = ix2 c (0 : Fin 1) := by
    funext ax; apply Fin.ext
    match ax with
    | ⟨0, _⟩ => simp [DotDims.rhsIdx, dot_S16x256_S256x1_S16x1_1_0_0_1_n_n] <;> exact c2
    | ⟨1, _⟩ => simp [DotDims.rhsIdx, dot_S16x256_S256x1_S16x1_1_0_0_1_n_n] <;> rfl
  rw [l2, r2]

/-- The second contraction, [256, 16] by [16, 1] into a zero accumulator, read at channel `c`: the sum over the 16
    hidden rows of the products. -/
theorem matmul2_apply (A : FVec Ideal S256x16 .f32) (B : FVec Ideal S16x1 .f32) (c : Fin 256) :
    matmul dot_S256x16_S16x1_S256x1_1_0_0_1_n_n none A B (constant (F := Ideal) S256x1 .f32 0x00000000#32) (ix2 c (0 : Fin 1))
      = ∑ r : Fin 16, A (ix2 c r) * B (ix2 r (0 : Fin 1)) := by
  show FloatOps.matmul _ none A B _ (ix2 c (0 : Fin 1)) = _
  rw [Ideal.matmul_constant_zero_apply, ← Equiv.sum_comp (contrEquiv1 dot_S256x16_S16x1_S256x1_1_0_0_1_n_n 16 rfl rfl).symm]
  refine Finset.sum_congr rfl fun r _ => ?_
  have c2 := contrEquiv1_symm_val dot_S256x16_S16x1_S256x1_1_0_0_1_n_n 16 rfl rfl r
  have l2 : dot_S256x16_S16x1_S256x1_1_0_0_1_n_n.lhsIdx (ix2 c (0 : Fin 1)) ((contrEquiv1 _ 16 rfl rfl).symm r) = ix2 c r := by
    funext ax; apply Fin.ext
    match ax with
    | ⟨0, _⟩ => simp [DotDims.lhsIdx, dot_S256x16_S16x1_S256x1_1_0_0_1_n_n] <;> rfl
    | ⟨1, _⟩ => simp [DotDims.lhsIdx, dot_S256x16_S16x1_S256x1_1_0_0_1_n_n] <;> exact c2
  have r2 : dot_S256x16_S16x1_S256x1_1_0_0_1_n_n.rhsIdx (ix2 c (0 : Fin 1)) ((contrEquiv1 _ 16 rfl rfl).symm r) = ix2 r (0 : Fin 1) := by
    funext ax; apply Fin.ext
    match ax with
    | ⟨0, _⟩ => simp [DotDims.rhsIdx, dot_S256x16_S16x1_S256x1_1_0_0_1_n_n] <;> exact c2
    | ⟨1, _⟩ => simp [DotDims.rhsIdx, dot_S256x16_S16x1_S256x1_1_0_0_1_n_n] <;> rfl
  rw [l2, r2]

/-- A column [256, 1] broadcast along 4096 positions reads, at `(c, k)`, the column at `c`. -/
theorem bcastCol_apply (v : FVec Ideal S256x1 .f32) (h : S256x1.Broadcasts S256x4096) (c : Fin 256) (k : Fin 4096) :
    broadcastTo S256x4096 v h (ix2 c k) = v (ix2 c (0 : Fin 1)) := by
  refine broadcastTo_apply v h (ix2 c k) (ix2 c (0 : Fin 1)) fun ax => ?_
  match ax with
  | ⟨0, _⟩ => first | rfl | (show c.val = if (256 : ℕ) = 1 then 0 else c.val; simp)
  | ⟨1, _⟩ => first | rfl | (show (0 : ℕ) = if (1 : ℕ) = 1 then 0 else k.val; simp)

section Stages

variable (x0 : FVec Ideal S1x256x4096 .f32) (W1 : FVec Ideal S16x256 .f32) (B1 : FVec Ideal S16x1 .f32)
  (W2 : FVec Ideal S256x16 .f32) (B2 : FVec Ideal S256x1 .f32)

/-- The block with its unit axis dropped: 256 channels by 4096 positions. -/
def rows : FVec Ideal S256x4096 .f32 := shapeCast S256x4096 x0 shapeCasts_S1x256x4096_S256x4096

theorem rows_apply (c : Fin 256) (k : Fin 4096) : rows x0 (ix2 c k) = x0 (ix3 (0 : Fin 1) c k) :=
  shapeCast_1ab_ab_apply x0 _ c k

/-- Each channel's sum over its positions, times the scale word, as a column. -/
def pooled : FVec Ideal S256x1 .f32 :=
  mulf (shapeCast S256x1 (multiReduction .add [1] S256 (rows x0) 0x00000000#32 reduces_S256x4096_S256 (.inl rfl) rfl) shapeCasts_S256_S256x1)
    (broadcast S256x1 (Scalar.ofBits (F := Ideal) .f32 0x39800000#32))

theorem pooled_apply (c : Fin 256) :
    pooled x0 (ix2 c (0 : Fin 1)) = (∑ k : Fin 4096, x0 (ix3 (0 : Fin 1) c k)) * Cert.SE.scale := by
  show (shapeCast S256x1 (multiReduction .add [1] S256 (rows x0) 0x00000000#32 reduces_S256x4096_S256 (.inl rfl) rfl) shapeCasts_S256_S256x1 (ix2 c (0 : Fin 1)))
      * Cert.SE.scale = _
  refine congrArg (· * Cert.SE.scale) ?_
  refine (shapeCast_apply _ shapeCasts_S256_S256x1 (ix2 c (0 : Fin 1)) (ix1 c) ?_).trans ?_
  · rw [Shape.rowMajor_val_one, Shape.rowMajor_val_two]
    show c.val = c.val * 1 + 0
    omega
  · refine (Ideal.multiReduction_add_single (rows x0) _ reduces_S256x4096_S256 _ _ (ix1 c)).trans ?_
    show ∑ k : Fin 4096, rows x0 (Shape.Reduces.lift reduces_S256x4096_S256 (ix1 c) k) = ∑ k : Fin 4096, x0 (ix3 (0 : Fin 1) c k)
    refine Finset.sum_congr rfl fun k _ => ?_
    refine Eq.trans (congrArg (rows x0) ?_) (rows_apply x0 c k)
    funext a; apply Fin.ext
    match a with
    | ⟨0, _⟩ => rfl
    | ⟨1, _⟩ => rfl

/-- The hidden column: first matrix applied to the pooled column, bias added, floored at the zero word. -/
def hidden : FVec Ideal S16x1 .f32 :=
  maximumf (addf (matmul dot_S16x256_S256x1_S16x1_1_0_0_1_n_n none (shapeCast S16x256 W1 shapeCasts_S16x256_S16x256) (pooled x0) (constant (F := Ideal) S16x1 .f32 0x00000000#32))
      (shapeCast S16x1 B1 shapeCasts_S16x1_S16x1)) (broadcast S16x1 (Scalar.ofBits (F := Ideal) .f32 0x00000000#32))

theorem hidden_apply (r : Fin 16) :
    hidden x0 W1 B1 (ix2 r (0 : Fin 1))
      = max ((∑ c' : Fin 256, W1 (ix2 r c') * ((∑ k : Fin 4096, x0 (ix3 (0 : Fin 1) c' k)) * Cert.SE.scale)) + B1 (ix2 r (0 : Fin 1))) Cert.SE.floor0 := by
  show max ((matmul dot_S16x256_S256x1_S16x1_1_0_0_1_n_n none (shapeCast S16x256 W1 shapeCasts_S16x256_S16x256) (pooled x0) (constant (F := Ideal) S16x1 .f32 0x00000000#32) (ix2 r (0 : Fin 1)))
      + (shapeCast S16x1 B1 shapeCasts_S16x1_S16x1 (ix2 r (0 : Fin 1)))) Cert.SE.floor0 = _
  refine congrArg (fun s => max s Cert.SE.floor0) ?_
  refine congrArg₂ (· + ·) ?_ (congrFun (shapeCast_self B1 _) _)
  refine (matmul1_apply _ _ r).trans (Finset.sum_congr rfl fun c' _ => ?_)
  exact congrArg₂ (· * ·) (congrFun (shapeCast_self W1 _) _) (pooled_apply x0 c')

/-- The gate column: second matrix applied to the hidden column, bias added, logistic. -/
def gate : FVec Ideal S256x1 .f32 :=
  logistic (addf (matmul dot_S256x16_S16x1_S256x1_1_0_0_1_n_n none (shapeCast S256x16 W2 shapeCasts_S256x16_S256x16) (hidden x0 W1 B1) (constant (F := Ideal) S256x1 .f32 0x00000000#32))
      (shapeCast S256x1 B2 shapeCasts_S256x1_S256x1))

theorem gate_apply (c : Fin 256) :
    gate x0 W1 B1 W2 B2 (ix2 c (0 : Fin 1))
      = Cert.SE.gateOfT (fun c' k' => x0 (ix3 (0 : Fin 1) c' k')) (fun r c' => W1 (ix2 r c')) (fun r => B1 (ix2 r (0 : Fin 1)))
          (fun c r => W2 (ix2 c r)) (fun c => B2 (ix2 c (0 : Fin 1))) c := by
  unfold Cert.SE.gateOfT
  show Ideal.logistic ((matmul dot_S256x16_S16x1_S256x1_1_0_0_1_n_n none (shapeCast S256x16 W2 shapeCasts_S256x16_S256x16) (hidden x0 W1 B1) (constant (F := Ideal) S256x1 .f32 0x00000000#32) (ix2 c (0 : Fin 1)))
      + (shapeCast S256x1 B2 shapeCasts_S256x1_S256x1 (ix2 c (0 : Fin 1)))) = _
  refine congrArg Ideal.logistic ?_
  refine congrArg₂ (· + ·) ?_ (congrFun (shapeCast_self B2 _) _)
  refine (matmul2_apply _ _ c).trans (Finset.sum_congr rfl fun r _ => ?_)
  exact congrArg₂ (· * ·) (congrFun (shapeCast_self W2 _) _) (hidden_apply x0 W1 B1 r)

/-- The body's stored value is the block's rows times the gate column broadcast along the positions, with the unit
    axis put back: the printed payload with its stages named. -/
theorem pay_eq : k0_pay1 x0 W1 B1 W2 B2
    = shapeCast S1x256x4096 (mulf (rows x0) (broadcastTo S256x4096 (gate x0 W1 B1 W2 B2) broadcasts_S256x1_S256x4096)) shapeCasts_S256x4096_S1x256x4096 := rfl

/-- THE STORED VALUE AT `(0, c, k)`: the block's element there times the gate of channel `c`. -/
theorem pay_apply (c : Fin 256) (k : Fin 4096) :
    k0_pay1 x0 W1 B1 W2 B2 (ix3 (0 : Fin 1) c k)
      = x0 (ix3 (0 : Fin 1) c k) * Cert.SE.gateOfT (fun c' k' => x0 (ix3 (0 : Fin 1) c' k')) (fun r c' => W1 (ix2 r c'))
          (fun r => B1 (ix2 r (0 : Fin 1))) (fun c r => W2 (ix2 c r)) (fun c => B2 (ix2 c (0 : Fin 1))) c := by
  rw [pay_eq]
  refine (shapeCast_ab_1ab_apply _ _ (0 : Fin 1) c k).trans ?_
  show rows x0 (ix2 c k) * broadcastTo S256x4096 (gate x0 W1 B1 W2 B2) broadcasts_S256x1_S256x4096 (ix2 c k) = _
  exact congrArg₂ (· * ·) (rows_apply x0 c k) ((bcastCol_apply _ _ c k).trans (gate_apply x0 W1 B1 W2 B2 c))

end Stages

end Cert.ReferenceIdeal.Hand

end
-- ==== Proof.RefBlocks.lean ====
/-
  From the reference's blocks to its output array.

  The region's input array `X` is [32, 256, 4096] (batch entry, channel, spatial position); grid point `t` stages batch
  entry `t` whole as a [1, 256, 4096] block, the two weight matrices and the two bias columns whole, and writes back
  block `t` of the output. What it writes back is block `t` of ONE function of the arrays the region reads (`R3`): at
  `(b, c, k)` the element `X[b, c, k]` times the gate of channel `c` from batch entry `b`'s rows. The thirty-two blocks
  tile the output, so after the run the output array is that function.
-/
import proofs.«104086_g2000609462483817_pallasbulk_97_12_alg».proof.Proof.Gen.ReferenceIdeal.Frame
import proofs.«104086_g2000609462483817_pallasbulk_97_12_alg».proof.Proof.RefArr
import proofs.«104086_g2000609462483817_pallasbulk_97_12_alg».proof.Proof.RefPay
import Idealize.ShloMosaic.Lib.Pipeline.Value

set_option maxRecDepth 16384

noncomputable section

open scoped BigOperators

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the two streamed windows are at block `t` on the batch axis and at
    block 0 elsewhere; the weights' and biases' windows are at block 0. -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0 :=
  (by decide +kernel : ∀ t : Fin grid0.N, _)

/-- Window 0's block at point `t` is batch entry `t` of the region's input array. -/
theorem iblk0_apply (c : Dev nD) (t : Fin cfg0.N) (ht : t.val < 32) (u : Fin 1) (ch : Fin 256) (k : Fin 4096) :
    (iblk m c 0 t : FVec Ideal S1x256x4096 .f32) (ix3 u ch k)
      = (V m c main_v0 : S32x256x4096.Idx → EReal) (ix3 (⟨t.val, ht⟩ : Fin 32) ch k) := by
  obtain ⟨e0, e1, e2, -⟩ := idx_facts t
  have hu := u.isLt
  unfold iblk
  rw [View.read_apply]
  show V m c main_v0 _ = V m c main_v0 _
  refine congrArg (V m c main_v0) ?_
  funext a; apply Fin.ext
  match a with
  | ⟨0, _⟩ => show win0_0.index t (0 : Fin 3) * 1 + 1 * u.val = t.val; rw [e0]; omega
  | ⟨1, _⟩ => show win0_0.index t (1 : Fin 3) * 256 + 1 * ch.val = ch.val; rw [e1]; omega
  | ⟨2, _⟩ => show win0_0.index t (2 : Fin 3) * 4096 + 1 * k.val = k.val; rw [e2]; omega

/-- The weights' and biases' windows hold their whole arrays at every point. -/
theorem iblk1_eq (c : Dev nD) (t : Fin cfg0.N) : (iblk m c 1 t : FVec Ideal S16x256 .f32) = V m c main_v7 := by
  obtain ⟨-, -, -, -, -, -, e0, e1, -⟩ := idx_facts t
  funext y
  unfold iblk
  rw [View.read_apply]
  show V m c main_v7 _ = V m c main_v7 y
  refine congrArg (V m c main_v7) ?_
  funext a; apply Fin.ext
  match a with
  | ⟨0, _⟩ => show win0_1.index t (0 : Fin 2) * 16 + 1 * (y 0).val = (y 0).val; rw [e0]; omega
  | ⟨1, _⟩ => show win0_1.index t (1 : Fin 2) * 256 + 1 * (y 1).val = (y 1).val; rw [e1]; omega
theorem iblk2_eq (c : Dev nD) (t : Fin cfg0.N) : (iblk m c 2 t : FVec Ideal S16x1 .f32) = V m c main_v12 := by
  obtain ⟨-, -, -, -, -, -, -, -, e0, e1, -⟩ := idx_facts t
  funext y
  unfold iblk
  rw [View.read_apply]
  show V m c main_v12 _ = V m c main_v12 y
  refine congrArg (V m c main_v12) ?_
  funext a; apply Fin.ext
  match a with
  | ⟨0, _⟩ => show win0_2.index t (0 : Fin 2) * 16 + 1 * (y 0).val = (y 0).val; rw [e0]; omega
  | ⟨1, _⟩ => show win0_2.index t (1 : Fin 2) * 1 + 1 * (y 1).val = (y 1).val; rw [e1]; omega
theorem iblk3_eq (c : Dev nD) (t : Fin cfg0.N) : (iblk m c 3 t : FVec Ideal S256x16 .f32) = V m c main_v8 := by
  obtain ⟨-, -, -, -, -, -, -, -, -, -, e0, e1, -⟩ := idx_facts t
  funext y
  unfold iblk
  rw [View.read_apply]
  show V m c main_v8 _ = V m c main_v8 y
  refine congrArg (V m c main_v8) ?_
  funext a; apply Fin.ext
  match a with
  | ⟨0, _⟩ => show win0_3.index t (0 : Fin 2) * 256 + 1 * (y 0).val = (y 0).val; rw [e0]; omega
  | ⟨1, _⟩ => show win0_3.index t (1 : Fin 2) * 16 + 1 * (y 1).val = (y 1).val; rw [e1]; omega
theorem iblk4_eq (c : Dev nD) (t : Fin cfg0.N) : (iblk m c 4 t : FVec Ideal S256x1 .f32) = V m c main_v16 := by
  obtain ⟨-, -, -, -, -, -, -, -, -, -, -, -, e0, e1⟩ := idx_facts t
  funext y
  unfold iblk
  rw [View.read_apply]
  show V m c main_v16 _ = V m c main_v16 y
  refine congrArg (V m c main_v16) ?_
  funext a; apply Fin.ext
  match a with
  | ⟨0, _⟩ => show win0_4.index t (0 : Fin 2) * 256 + 1 * (y 0).val = (y 0).val; rw [e0]; omega
  | ⟨1, _⟩ => show win0_4.index t (1 : Fin 2) * 1 + 1 * (y 1).val = (y 1).val; rw [e1]; omega

/-- The gate depends on the rows only through their entries. -/
theorem gateOfT_congr_rows (xs xs' : Fin 256 → Fin 4096 → EReal) (h : ∀ c' k', xs c' k' = xs' c' k')
    (w1 : Fin 16 → Fin 256 → EReal) (b1 : Fin 16 → EReal) (w2 : Fin 256 → Fin 16 → EReal) (b2 : Fin 256 → EReal) (c : Fin 256) :
    Cert.SE.gateOfT xs w1 b1 w2 b2 c = Cert.SE.gateOfT xs' w1 b1 w2 b2 c := by
  rw [show xs = xs' from funext fun c' => funext fun k' => h c' k']

/-- WHAT POINT `t` WRITES BACK is block `t` of `R3` of the arrays as the region finds them. -/
theorem flushed_eq (c : Dev nD) (t : Fin cfg0.N) :
    (dats m 0 c).flushed 5 t = ((cfg0.win 5).blk t).view.read (Elt Ideal)
      (R3 (V m c main_v0) (V m c main_v7) (V m c main_v12) (V m c main_v8) (V m c main_v16)) := by
  have ht : t.val < 32 := Nat.lt_of_lt_of_eq t.isLt N_0
  show (cfg0.win 5).cut (grid0.coords t) ((dats m 0 c).after 5 t) = _
  rw [after0_5]
  unfold out0_5
  rw [View.canon_unit_zero hz3]
  simp only [View.ld_unit_zero (S := S1x256x4096) hz3, View.ld_unit_zero (S := S16x256) hz2, View.ld_unit_zero (S := S16x1) hz2,
    View.ld_unit_zero (S := S256x16) hz2, View.ld_unit_zero (S := S256x1) hz2]
  rw [iblk1_eq, iblk2_eq, iblk3_eq, iblk4_eq]
  obtain ⟨-, -, -, e0, e1, e2, -⟩ := idx_facts t
  have key : ∀ y : S1x256x4096.Idx,
      k0_pay1 (F := Ideal) (iblk m c 0 t) (V m c main_v7) (V m c main_v12) (V m c main_v8) (V m c main_v16) y
        = R3 (V m c main_v0) (V m c main_v7) (V m c main_v12) (V m c main_v8) (V m c main_v16) (((cfg0.win 5).blk t).view.emb y) := by
    intro y
    obtain ⟨u, ch, k, rfl⟩ : ∃ (u : Fin 1) (ch : Fin 256) (k : Fin 4096), y = ix3 u ch k := ⟨y 0, y 1, y 2, eq_ix3 y⟩
    obtain rfl : u = 0 := Subsingleton.elim _ _
    have hemb : ((cfg0.win 5).blk t).view.emb (ix3 (0 : Fin 1) ch k) = ix3 (⟨t.val, ht⟩ : Fin 32) ch k := by
      funext a; apply Fin.ext
      match a with
      | ⟨0, _⟩ => show win0_5.index t (0 : Fin 3) * 1 + 1 * 0 = t.val; rw [e0]; omega
      | ⟨1, _⟩ => show win0_5.index t (1 : Fin 3) * 256 + 1 * ch.val = ch.val; rw [e1]; omega
      | ⟨2, _⟩ => show win0_5.index t (2 : Fin 3) * 4096 + 1 * k.val = k.val; rw [e2]; omega
    rw [hemb]
    refine (pay_apply (iblk m c 0 t) (V m c main_v7) (V m c main_v12) (V m c main_v8) (V m c main_v16) ch k).trans ?_
    refine Eq.trans ?_ (R3_apply (V m c main_v0) (V m c main_v7) (V m c main_v12) (V m c main_v8) (V m c main_v16) (⟨t.val, ht⟩ : Fin 32) ch k).symm
    exact congrArg₂ (· * ·) (iblk0_apply m c t ht 0 ch k)
      (gateOfT_congr_rows _ _ (fun c' k' => iblk0_apply m c t ht 0 c' k') _ _ _ _ ch)
  funext j
  exact key j

/-- An index of the output is in point `t`'s block iff each coordinate is in the block's range on its axis. -/
theorem mem_blk5 (t : Fin cfg0.N) (i : S32x256x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v17).slice (win0_5.rect t)).set ↔ _
  rw [View.set_slice_whole, Rect.mem_set_unit]
  exact Iff.rfl

/-- Every index of the output lies in the block of the point that holds its batch entry. -/
theorem cover5 (i : S32x256x4096.Idx) : ∃ t : Fin cfg0.N, (cfg0.win 5).flush t = true ∧ i ∈ ((cfg0.win 5).blk t).view.set := by
  have h0 : (i 0).val < 32 := (i 0).isLt
  have h1 : (i 1).val < 256 := (i 1).isLt
  have h2 : (i 2).val < 4096 := (i 2).isLt
  obtain ⟨t, ht⟩ : ∃ t : Fin cfg0.N, t.val = (i 0).val := ⟨⟨(i 0).val, by rw [show cfg0.N = 32 from N_0]; omega⟩, rfl⟩
  obtain ⟨-, -, -, e0, e1, e2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 256 ≤ (i 1).val ∧ (i 1).val < win0_5.index t (1 : Fin 3) * 256 + 256; rw [e1]; omega
  | ⟨2, _⟩ => show win0_5.index t (2 : Fin 3) * 4096 ≤ (i 2).val ∧ (i 2).val < win0_5.index t (2 : Fin 3) * 4096 + 4096; rw [e2]; omega

/-- THE OUTPUT ARRAY after the run is `R3` of the arrays the region reads. -/
theorem final5 (c : Dev nD) : (dats m 0 c).arrAt 5 cfg0.N
    = R3 (V m c main_v0) (V m c main_v7) (V m c main_v12) (V m c main_v8) (V m c main_v16) :=
  (dats m 0 c).arrAt_eq_of_cover 5 _ (fun t _ => flushed_eq m c t) cover5

end Cert.ReferenceIdeal.Hand

end
-- ==== Proof.RefHost.lean ====
/-
  What the region finds in its five operand arrays, as terms of the program's arguments, and those terms read at an
  index.

  Before the region the host reshapes `x` from [32, 256, 64, 64] to [32, 256, 4096] (position `k` of a plane is row
  `k / 64`, column `k % 64`); forms `kron (eye 1) w` for both weight matrices, which multiplies every entry of `w` by
  the one entry of the 1 × 1 identity — the conversion to f32 of the one-bit word 1, that is the real 1 — so the
  entry is unchanged; and turns each bias vector into a column through reshapes and a same-shape broadcast.
-/
import proofs.«104086_g2000609462483817_pallasbulk_97_12_alg».proof.Proof.Gen.ReferenceIdeal.Frame
import proofs.«104086_g2000609462483817_pallasbulk_97_12_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open scoped BigOperators
open Idealize.ShloMosaic Idealize.ShloMosaic.ValueIdx Idealize.ShloMosaic.TcCoe Idealize.SL.Sem

namespace Cert.ReferenceIdeal.Hand

open Cert.ReferenceIdeal Cert.ReferenceIdeal.Gen

/-- The 1 × 1 identity as the host builds it: the comparison "row index + 0 = column index", converted to f32. -/
def eye : S1x1.Idx → Elt Ideal .f32 :=
  uitofp (F := Ideal) .f32 (cmpi .eq (addi (iotaInDim S1x1 32 0) (broadcastInDim S1x1 ![] bcast_S_S1x1 (constantI S_ 32 0#32))) (iotaInDim S1x1 32 1))

/-- Its one entry is 1. -/
theorem eye_apply (i : S1x1.Idx) : eye i = 1 := by
  have h0 : (i 0).val = 0 := Nat.lt_one_iff.mp (i 0).isLt
  have h1 : (i 1).val = 0 := Nat.lt_one_iff.mp (i 1).isLt
  show (((IntOp.cmpi .eq (IntOp.addi (BitVec.ofNat 32 (i 0).val) 0#32) (BitVec.ofNat 32 (i 1).val)).toNat : ℝ) : EReal) = 1
  rw [h0, h1]
  have hb : IntOp.cmpi .eq (IntOp.addi (BitVec.ofNat 32 0) 0#32) (BitVec.ofNat 32 0) = 1#1 := by decide
  rw [hb]
  show (((1 : ℕ) : ℝ) : EReal) = 1
  first | simp | norm_num

/-- `kron (eye 1) w` for the first weight matrix, as the host computes it. -/
def kron1 (w : S16x256.Idx → Elt Ideal .f32) : S16x256.Idx → Elt Ideal .f32 :=
  shapeCast S16x256
    (mulf (F := Ideal) (φ := .f32)
      (broadcastInDim S1x16x1x256 ![0, 1, 2, 3] bcast_S1x1x1x1_S1x16x1x256_0_1_2_3 (broadcastInDim S1x1x1x1 ![0, 2] bcast_S1x1_S1x1x1x1_0_2 eye))
      (broadcastInDim S1x16x1x256 ![1, 3] bcast_S16x256_S1x16x1x256_1_3 w))
    shapeCasts_S1x16x1x256_S16x256

/-- It is `w`, entry by entry. -/
theorem kron1_apply (w : S16x256.Idx → Elt Ideal .f32) (r : Fin 16) (c' : Fin 256) : kron1 w (ix2 r c') = w (ix2 r c') := by
  unfold kron1
  refine (shapeCast_apply _ shapeCasts_S1x16x1x256_S16x256 (ix2 r c') (ix4 (0 : Fin 1) r (0 : Fin 1) c') ?_).trans ?_
  · rw [Shape.rowMajor_val_four, Shape.rowMajor_val_two]
    show ((0 * 16 + r.val) * 1 + 0) * 256 + c'.val = r.val * 256 + c'.val
    omega
  · have hA : broadcastInDim S1x16x1x256 ![0, 1, 2, 3] bcast_S1x1x1x1_S1x16x1x256_0_1_2_3 (broadcastInDim S1x1x1x1 ![0, 2] bcast_S1x1_S1x1x1x1_0_2 eye) (ix4 (0 : Fin 1) r (0 : Fin 1) c') = 1 :=
      (broadcastInDim_apply _ bcast_S1x1x1x1_S1x16x1x256_0_1_2_3 _ (ix4 (0 : Fin 1) r (0 : Fin 1) c') (ix4 (0 : Fin 1) (0 : Fin 1) (0 : Fin 1) (0 : Fin 1))
        (fun a => match a with | ⟨0, _⟩ => rfl | ⟨1, _⟩ => rfl | ⟨2, _⟩ => rfl | ⟨3, _⟩ => rfl)).trans
      ((broadcastInDim_apply _ bcast_S1x1_S1x1x1x1_0_2 eye (ix4 (0 : Fin 1) (0 : Fin 1) (0 : Fin 1) (0 : Fin 1)) (ix2 (0 : Fin 1) (0 : Fin 1))
        (fun a => match a with | ⟨0, _⟩ => rfl | ⟨1, _⟩ => rfl)).trans (eye_apply _))
    have hB : broadcastInDim S1x16x1x256 ![1, 3] bcast_S16x256_S1x16x1x256_1_3 w (ix4 (0 : Fin 1) r (0 : Fin 1) c') = w (ix2 r c') :=
      broadcastInDim_apply _ bcast_S16x256_S1x16x1x256_1_3 w (ix4 (0 : Fin 1) r (0 : Fin 1) c') (ix2 r c')
        (fun a => match a with | ⟨0, _⟩ => rfl | ⟨1, _⟩ => rfl)
    show (broadcastInDim S1x16x1x256 ![0, 1, 2, 3] bcast_S1x1x1x1_S1x16x1x256_0_1_2_3 (broadcastInDim S1x1x1x1 ![0, 2] bcast_S1x1_S1x1x1x1_0_2 eye) (ix4 (0 : Fin 1) r (0 : Fin 1) c'))
        * (broadcastInDim S1x16x1x256 ![1, 3] bcast_S16x256_S1x16x1x256_1_3 w (ix4 (0 : Fin 1) r (0 : Fin 1) c')) = _
    rw [hA, hB, one_mul]

/-- `kron (eye 1) w` for the second weight matrix. -/
def kron2 (w : S256x16.Idx → Elt Ideal .f32) : S256x16.Idx → Elt Ideal .f32 :=
  shapeCast S256x16
    (mulf (F := Ideal) (φ := .f32)
      (broadcastInDim S1x256x1x16 ![0, 1, 2, 3] bcast_S1x1x1x1_S1x256x1x16_0_1_2_3 (broadcastInDim S1x1x1x1 ![0, 2] bcast_S1x1_S1x1x1x1_0_2 eye))
      (broadcastInDim S1x256x1x16 ![1, 3] bcast_S256x16_S1x256x1x16_1_3 w))
    shapeCasts_S1x256x1x16_S256x16

theorem kron2_apply (w : S256x16.Idx → Elt Ideal .f32) (c : Fin 256) (r : Fin 16) : kron2 w (ix2 c r) = w (ix2 c r) := by
  unfold kron2
  refine (shapeCast_apply _ shapeCasts_S1x256x1x16_S256x16 (ix2 c r) (ix4 (0 : Fin 1) c (0 : Fin 1) r) ?_).trans ?_
  · rw [Shape.rowMajor_val_four, Shape.rowMajor_val_two]
    show ((0 * 256 + c.val) * 1 + 0) * 16 + r.val = c.val * 16 + r.val
    omega
  · have hA : broadcastInDim S1x256x1x16 ![0, 1, 2, 3] bcast_S1x1x1x1_S1x256x1x16_0_1_2_3 (broadcastInDim S1x1x1x1 ![0, 2] bcast_S1x1_S1x1x1x1_0_2 eye) (ix4 (0 : Fin 1) c (0 : Fin 1) r) = 1 :=
      (broadcastInDim_apply _ bcast_S1x1x1x1_S1x256x1x16_0_1_2_3 _ (ix4 (0 : Fin 1) c (0 : Fin 1) r) (ix4 (0 : Fin 1) (0 : Fin 1) (0 : Fin 1) (0 : Fin 1))
        (fun a => match a with | ⟨0, _⟩ => rfl | ⟨1, _⟩ => rfl | ⟨2, _⟩ => rfl | ⟨3, _⟩ => rfl)).trans
      ((broadcastInDim_apply _ bcast_S1x1_S1x1x1x1_0_2 eye (ix4 (0 : Fin 1) (0 : Fin 1) (0 : Fin 1) (0 : Fin 1)) (ix2 (0 : Fin 1) (0 : Fin 1))
        (fun a => match a with | ⟨0, _⟩ => rfl | ⟨1, _⟩ => rfl)).trans (eye_apply _))
    have hB : broadcastInDim S1x256x1x16 ![1, 3] bcast_S256x16_S1x256x1x16_1_3 w (ix4 (0 : Fin 1) c (0 : Fin 1) r) = w (ix2 c r) :=
      broadcastInDim_apply _ bcast_S256x16_S1x256x1x16_1_3 w (ix4 (0 : Fin 1) c (0 : Fin 1) r) (ix2 c r)
        (fun a => match a with | ⟨0, _⟩ => rfl | ⟨1, _⟩ => rfl)
    show (broadcastInDim S1x256x1x16 ![0, 1, 2, 3] bcast_S1x1x1x1_S1x256x1x16_0_1_2_3 (broadcastInDim S1x1x1x1 ![0, 2] bcast_S1x1_S1x1x1x1_0_2 eye) (ix4 (0 : Fin 1) c (0 : Fin 1) r))
        * (broadcastInDim S1x256x1x16 ![1, 3] bcast_S256x16_S1x256x1x16_1_3 w (ix4 (0 : Fin 1) c (0 : Fin 1) r)) = _
    rw [hA, hB, one_mul]

/-- A bias vector of 16 entries as a column, through the host's reshapes and same-shape broadcast. -/
def col1 (b : S16.Idx → Elt Ideal .f32) : S16x1.Idx → Elt Ideal .f32 :=
  shapeCast S16x1 (shapeCast S16 (broadcastInDim S1x16 ![0, 1] bcast_S1x16_S1x16_0_1 (shapeCast S1x16 b shapeCasts_S16_S1x16)) shapeCasts_S1x16_S16) shapeCasts_S16_S16x1

theorem col1_apply (b : S16.Idx → Elt Ideal .f32) (r : Fin 16) : col1 b (ix2 r (0 : Fin 1)) = b (ix1 r) := by
  unfold col1
  refine (shapeCast_apply _ shapeCasts_S16_S16x1 (ix2 r (0 : Fin 1)) (ix1 r) ?_).trans ?_
  · rw [Shape.rowMajor_val_one, Shape.rowMajor_val_two]
    show r.val = r.val * 1 + 0
    omega
  refine (shapeCast_1a_a_apply _ shapeCasts_S1x16_S16 r).trans ?_
  refine (broadcastInDim_apply _ bcast_S1x16_S1x16_0_1 _ (ix2 (0 : Fin 1) r) (ix2 (0 : Fin 1) r)
    (fun a => match a with | ⟨0, _⟩ => rfl | ⟨1, _⟩ => rfl)).trans ?_
  exact shapeCast_a_1a_apply b shapeCasts_S16_S1x16 (0 : Fin 1) r

/-- A bias vector of 256 entries as a column. -/
def col2 (b : S256.Idx → Elt Ideal .f32) : S256x1.Idx → Elt Ideal .f32 :=
  shapeCast S256x1 (shapeCast S256 (broadcastInDim S1x256 ![0, 1] bcast_S1x256_S1x256_0_1 (shapeCast S1x256 b shapeCasts_S256_S1x256)) shapeCasts_S1x256_S256) shapeCasts_S256_S256x1

theorem col2_apply (b : S256.Idx → Elt Ideal .f32) (c : Fin 256) : col2 b (ix2 c (0 : Fin 1)) = b (ix1 c) := by
  unfold col2
  refine (shapeCast_apply _ shapeCasts_S256_S256x1 (ix2 c (0 : Fin 1)) (ix1 c) ?_).trans ?_
  · rw [Shape.rowMajor_val_one, Shape.rowMajor_val_two]
    show c.val = c.val * 1 + 0
    omega
  refine (shapeCast_1a_a_apply _ shapeCasts_S1x256_S256 c).trans ?_
  refine (broadcastInDim_apply _ bcast_S1x256_S1x256_0_1 _ (ix2 (0 : Fin 1) c) (ix2 (0 : Fin 1) c)
    (fun a => match a with | ⟨0, _⟩ => rfl | ⟨1, _⟩ => rfl)).trans ?_
  exact shapeCast_a_1a_apply b shapeCasts_S256_S1x256 (0 : Fin 1) c

/-- The flattened `x` at `(b, c, k)` is `x` at row `k / 64`, column `k % 64` of that plane. -/
theorem flat_apply (x : S32x256x64x64.Idx → Elt Ideal .f32) (b : Fin 32) (c : Fin 256) (k : Fin 4096) :
    shapeCast S32x256x4096 x shapeCasts_S32x256x64x64_S32x256x4096 (ix3 b c k) = x (Cert.SE.pos b c k) := by
  refine shapeCast_apply x shapeCasts_S32x256x64x64_S32x256x4096 (ix3 b c k) (Cert.SE.pos b c k) ?_
  rw [Shape.rowMajor_val_four, Shape.rowMajor_val_three]
  show ((b.val * 256 + c.val) * 64 + k.val / 64) * 64 + k.val % 64 = (b.val * 256 + c.val) * 4096 + k.val
  omega

section Arrays

variable (m : (ℓ : Loc nD τ sig) → Buf (Elt Ideal) ℓ)

/-- Operand 0 of the region: `x` flattened. -/
theorem V_v0 (c : Dev nD) : (V m c main_v0 : S32x256x4096.Idx → Elt Ideal .f32)
    = shapeCast S32x256x4096 (m ((c : Thread nD τ).loc main_arg0) : S32x256x64x64.Idx → Elt Ideal .f32) shapeCasts_S32x256x64x64_S32x256x4096 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Operand 1: `kron (eye 1) w1`. -/
theorem V_v7 (c : Dev nD) : (V m c main_v7 : S16x256.Idx → Elt Ideal .f32)
    = kron1 (m ((c : Thread nD τ).loc main_arg1) : S16x256.Idx → Elt Ideal .f32) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Operand 3: `kron (eye 1) w2`. -/
theorem V_v8 (c : Dev nD) : (V m c main_v8 : S256x16.Idx → Elt Ideal .f32)
    = kron2 (m ((c : Thread nD τ).loc main_arg3) : S256x16.Idx → Elt Ideal .f32) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Operand 2: `b1` as a column. -/
theorem V_v12 (c : Dev nD) : (V m c main_v12 : S16x1.Idx → Elt Ideal .f32)
    = col1 (m ((c : Thread nD τ).loc main_arg2) : S16.Idx → Elt Ideal .f32) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Operand 4: `b2` as a column. -/
theorem V_v16 (c : Dev nD) : (V m c main_v16 : S256x1.Idx → Elt Ideal .f32)
    = col2 (m ((c : Thread nD τ).loc main_arg4) : S256.Idx → Elt Ideal .f32) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

end Arrays

end Cert.ReferenceIdeal.Hand

end
-- ==== Proof.RefRun.lean ====
/-
  The reference program's run, read: its result array is `Cert.SE.G` of its arguments.

  The region's output array is `R3` of the arrays the region reads (`final5`); those arrays are the argument `x` with
  its planes flattened, the two weight matrices each multiplied entry by entry by the number one, and the two biases as
  columns; the host unflattens the region's output. Entry by entry that is `Cert.SE.G` of the arguments (`result_eq`).
-/
import proofs.«104086_g2000609462483817_pallasbulk_97_12_alg».proof.Proof.RefBlocks
import proofs.«104086_g2000609462483817_pallasbulk_97_12_alg».proof.Proof.RefHost
import proofs.«104086_g2000609462483817_pallasbulk_97_12_alg».proof.Proof.RefArr
import Idealize.ShloMosaic.Lib.StableHlo.Run

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The program's result: the region's output array with its planes unflattened. -/
theorem tail_v18 (c : Dev nD) : (Pipeline.afterTail₀ cfgs (dats m) 0 (V0 m) [hostOps1] c main_v18 : S32x256x64x64.Idx → EReal)
    = shapeCast S32x256x64x64 ((dats m 0 c).arrAt 5 cfg0.N : S32x256x4096.Idx → EReal) shapeCasts_S32x256x4096_S32x256x64x64 := by
  unfold Pipeline.afterTail₀
  show StableHlo.after hostOps1 _ (Proc.devRef .tc main_v18) = _
  after_results
  refine congrArg (fun O : S32x256x4096.Idx → EReal => shapeCast S32x256x64x64 O shapeCasts_S32x256x4096_S32x256x64x64) ?_
  exact Pipeline.withArrays_arr spec0 launch0.win.arr_inj c _ _ 5

/-- The result is `Cert.SE.G` of the arguments. -/
theorem result_v18 (c : Dev nD) : (Pipeline.afterTail₀ cfgs (dats m) 0 (V0 m) [hostOps1] c main_v18 : S32x256x64x64.Idx → EReal)
    = Cert.SE.G (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_v18, final5]
  exact result_eq _ _ _ _ _ _ _ _ _ _
    (fun b c' k => by rw [V_v0]; exact flat_apply _ b c' k)
    (fun r c' => by rw [V_v7]; exact kron1_apply _ r c')
    (fun r => by rw [V_v12]; exact col1_apply _ r)
    (fun c' r => by rw [V_v8]; exact kron2_apply _ c' r)
    (fun c' => by rw [V_v16]; exact col2_apply _ c') _

/-- THE RUN, READ: every weakly fair execution terminates with the result array at `Cert.SE.G` of the arguments and the
    arguments unchanged. -/
theorem run : θ_run defs (onTc (τ := τ) (main (F := Ideal))) ⟨m, fun _ => 0, ρ⟩ (fun r => ∀ c : Dev nD,
      r.2.mem ((c.tc : Thread nD τ).loc main_v18) = Cert.SE.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v18 (Pipeline.mem_restRefs_of main_v18 (by decide) (by decide))).trans (result_v18 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.ReferenceIdeal.Hand

end
-- ==== Proof.lean ====
/-
  The certificate: a squeeze-and-excite layer computed by two tilings of the same mathematics.

  The kernel moves the channel axis of `x` last, streams two batch entries per grid point and applies the two small
  matrices from the right; the reference keeps the channels first, streams one batch entry per grid point and applies
  the matrices (each multiplied entry by entry by the number one) from the left. On the extended reals both programs
  end with their result array at ONE function of the five arguments, `Cert.SE.G` (Proof/Spec.lean): each element of
  `x` times the logistic gate of its batch entry and channel. The two sides differ by the order of the factors in
  every product — multiplication of extended reals commutes —, by `1 · w = w`, and by re-indexings of the same finite
  sums; no law that needs finiteness is used, so the precondition is never opened.

  The three frames are the generated ones; the ideal pass rewrote nothing, so `preserves` is `True`; the kernel's run is
  read in Proof/KernelPay, KernelArr, KernelBlocks, KernelRun and the reference's in Proof/RefPay, RefArr, RefHost,
  RefBlocks, RefRun.
-/
import proofs.«104086_g2000609462483817_pallasbulk_97_12_alg».proof.Defs
import proofs.«104086_g2000609462483817_pallasbulk_97_12_alg».proof.Proof.Gen.Kernel
import proofs.«104086_g2000609462483817_pallasbulk_97_12_alg».proof.Proof.Gen.Kernel.Frame
import proofs.«104086_g2000609462483817_pallasbulk_97_12_alg».proof.Proof.Gen.KernelIdeal
import proofs.«104086_g2000609462483817_pallasbulk_97_12_alg».proof.Proof.Gen.KernelIdeal.Frame
import proofs.«104086_g2000609462483817_pallasbulk_97_12_alg».proof.Proof.Gen.ReferenceIdeal
import proofs.«104086_g2000609462483817_pallasbulk_97_12_alg».proof.Proof.Gen.ReferenceIdeal.Frame
import proofs.«104086_g2000609462483817_pallasbulk_97_12_alg».proof.Proof.Gen.Pre_finite_inputs
import proofs.«104086_g2000609462483817_pallasbulk_97_12_alg».proof.Proof.KernelRun
import proofs.«104086_g2000609462483817_pallasbulk_97_12_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation of the kernel. -/
theorem preserves : Cert.preserves_Kernel_KernelIdeal := trivial

/-- Both idealized programs, run from memories that agree on the arguments, end with their result arrays at
    `Cert.SE.G` of those arguments. -/
theorem algebraic : Cert.algebraic_KernelIdeal_ReferenceIdeal := by
  intro m ρ m' ρ' _ hagree
  refine ⟨fun c => Cert.SE.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩) (Cert.ReferenceIdeal.Hand.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
